-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S128x1024 : Shape := ⟨2, ![128, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S128x1024 .f32) (main_arg3 : FVec F S128x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_v13 main_v16
-- ==== Kernel.lean ====
abbrev S4x2048x1024 : Shape := ⟨3, ![4, 2048, 1024]⟩
abbrev S128x1024 : Shape := ⟨2, ![128, 1024]⟩
abbrev S1024x1024 : Shape := ⟨2, ![1024, 1024]⟩
abbrev S8192x1024 : Shape := ⟨2, ![8192, 1024]⟩
abbrev S8192x128 : Shape := ⟨2, ![8192, 128]⟩
abbrev S512x1024 : Shape := ⟨2, ![512, 1024]⟩
abbrev S512x128 : Shape := ⟨2, ![512, 128]⟩
abbrev S4x2048x128 : Shape := ⟨3, ![4, 2048, 128]⟩
abbrev S1x256x128 : Shape := ⟨3, ![1, 256, 128]⟩
abbrev S1x2048x1024 : Shape := ⟨3, ![1, 2048, 1024]⟩
abbrev S1x256x1024 : Shape := ⟨3, ![1, 256, 1024]⟩
abbrev S2048x128 : Shape := ⟨2, ![2048, 128]⟩
abbrev S2048x1024 : Shape := ⟨2, ![2048, 1024]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x128, .bf16⟩
  | .hbm, ⟨8, _⟩ => ⟨S4x2048x128, .bf16⟩
  | .hbm, ⟨9, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S128x1024, .f32⟩
  | .local _ .vmem, ⟨3, _⟩ => ⟨S512x128, .bf16⟩
  | .local _ .vmem, ⟨4, _⟩ => ⟨S512x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x2048x1024, .f32⟩
  | .local _ .vmem, ⟨8, _⟩ => ⟨S1x2048x1024, .f32⟩
  | .local _ .vmem, ⟨9, _⟩ => ⟨S128x1024, .f32⟩
  | .local _ .vmem, ⟨10, _⟩ => ⟨S1024x1024, .f32⟩
  | .local _ .vmem, ⟨11, _⟩ => ⟨S1024x1024, .f32⟩
  | .local _ .vmem, ⟨12, _⟩ => ⟨S1x256x1024, .f32⟩
  | .local _ .vmem, ⟨13, _⟩ => ⟨S1x256x1024, .f32⟩
  | .local _ .vmem, ⟨14, _⟩ => ⟨S2048x128, .bf16⟩
  | .local _ .vmem, ⟨15, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S8192x128_S4x2048x128 : S8192x128.ShapeCasts S4x2048x128
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  reduces_S256x2048_S256 : S256x2048.Reduces [1] S256
  shapeCasts_S256_S256x1 : S256.ShapeCasts S256x1
  broadcasts_S256x1_S256x2048 : S256x1.Broadcasts S256x2048
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x1024_S128x1024_S512x128_1_1_0_0_n_n_wf : DotDims.WF S512x1024 S128x1024 S512x128 [1] [1] [0] [0] [] []
  dot_S2048x1024_S128x1024_S2048x128_1_1_0_0_n_n_wf : DotDims.WF S2048x1024 S128x1024 S2048x128 [1] [1] [0] [0] [] []
  dot_S2048x1024_S1024x1024_S2048x1024_1_1_0_0_n_n_wf : DotDims.WF S2048x1024 S1024x1024 S2048x1024 [1] [1] [0] [0] [] []
  dot_S256x128_S2048x128_S256x2048_1_1_0_0_n_n_wf : DotDims.WF S256x128 S2048x128 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .bf16 = 32 ∨ (Rect.block (s := S8192x128) S512x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S4x2048x128.size a
  hwx1_0 : ∀ i : grid1.Coords, EltTy.bits .bf16 = 32 ∨ (Rect.block (s := S4x2048x128) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .f32 = 32 ∨ (Rect.block (s := S4x2048x1024) S1x2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x1024.size a
  hwx1_2 : ∀ i : grid1.Coords, EltTy.bits .f32 = 32 ∨ (Rect.block (s := S128x1024) S128x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .f32 = 32 ∨ (Rect.block (s := S1024x1024) S1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S128x1024 : Shape := ⟨2, ![128, 1024]⟩
abbrev S1024x1024 : Shape := ⟨2, ![1024, 1024]⟩
abbrev S4x2048x128 : Shape := ⟨3, ![4, 2048, 128]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x1024, .f32⟩
  | .hbm, ⟨6, _⟩ => ⟨S4x2048x128, .f32⟩
  | .hbm, ⟨7, _⟩ => ⟨S4x2048x128, .f32⟩
  | .hbm, ⟨8, _⟩ => ⟨S4x2048x1024, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x1024, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S128x1024_S4x2048x128_2_1_01_0_n_n_wf : DotDims.WF S4x2048x1024 S128x1024 S4x2048x128 [2] [1] [0, 1] [0] [] []
  dot_S4x2048x1024_S1024x1024_S4x2048x1024_2_1_01_0_n_n_wf : DotDims.WF S4x2048x1024 S1024x1024 S4x2048x1024 [2] [1] [0, 1] [0] [] []
  dot_S4x2048x128_S4x2048x128_S4x2048x2048_2_2_1_1_0_0_wf : DotDims.WF S4x2048x128 S4x2048x128 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S128x1024_S4x2048x128_2_1_01_0_n_n : DotDims S4x2048x1024 S128x1024 S4x2048x128 where
  lhsContracting := [2]
  rhsContracting := [1]
  lhsNonContracting := [0, 1]
  rhsNonContracting := [0]
  lhsBatch := []
  rhsBatch := []
  wf := dot_S4x2048x1024_S128x1024_S4x2048x128_2_1_01_0_n_n_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KBRegionQ.lean ====
/-
  The query projection, as one pipelined region: sixteen grid points, point t staging rows 512·t … 512·t+511 of the
  flattened target (window 0), the whole projection weight (window 1), and writing back the same rows of the
  projected queries (window 2). The body reads both input blocks and stores, over the whole output block, the
  product of the target rows with the transposed weight. Stated at a parameter V: the core's buffer contents
  when the region is entered.
-/
import proofs.«155551_j8581344657576_2_alg».proof.Proof.Gen.Kernel.Launch
import proofs.«155551_j8581344657576_2_alg».proof.Proof.Gen.Kernel.Skeleton
import proofs.«155551_j8581344657576_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The target rows' staging buffer holds the point's block, whether fetched at this point or kept from the one before. -/
theorem qbefore_0_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- The weight's staging buffer holds the whole weight at every point: fetched once, its block index never moves. -/
theorem qbefore_1_of {c : Dev nD} (dat : Dat τ (Elt F) Unit ℕ (UR sig nD τ) ℕ cfg0 c) (hA : dat.A 1 = V c (Pipeline.arrRef spec0 1))
    (hafter : ∀ t, dat.after 1 t = qblk V c 1 t) (t : Fin cfg0.N) (d) : dat.before 1 t d = qblk V c 1 t :=
  (dat.before_in_eq_fetched 1 rfl (fun _ => rfl) (fun _ _ _ => rfl) (fun t => by rw [hafter]; unfold Dat.blockOf qblk; rw [hA]; try rfl) t d).trans
    (by unfold Dat.fetched Dat.blockOf qblk; rw [hA]; try rfl)

/-! ## What the body leaves in the output block -/

abbrev qr_in0 : Rect S512x1024 := Rect.unit (s := S512x1024) ![0, 0] S512x1024.size inb_S512x1024_S512x1024_0_0
abbrev qr_in1 : Rect S128x1024 := Rect.unit (s := S128x1024) ![0, 0] S128x1024.size inb_S128x1024_S128x1024_0_0
abbrev qr_out : Rect S512x128 := Rect.unit (s := S512x128) ![0, 0] S512x128.size inb_S512x128_S512x128_0_0

/-- The output block after the body: its one store, over the whole block, of the projected rows. -/
def qout (x0 : Vec F S512x1024 .f32) (x1 : Vec F S128x1024 .f32) : Vec F S512x128 .bf16 :=
  View.canon [⟨qr_out, k0_pay1 (View.ld x0 qr_in0) (View.ld x1 qr_in1)⟩]

/-- The one store covers the block. -/
theorem qcover (p0 : Vec F S512x128 .bf16) (y : S512x128.Idx) :
    ∃ pc ∈ ([⟨qr_out, p0⟩] : List (View.Piece (Elt F) S512x128 .bf16)), y ∈ pc.1.set :=
  View.cover_of_tiled [⟨qr_out, p0⟩] S512x128.size (by rfl) y

/-! ## The body's triple -/

set_option maxHeartbeats 1000000 in
/-- On whole staging buffers, the inputs' at known contents and the output's at anything, the body runs to the end,
    leaving the inputs as they were and the output at the projected rows. -/
theorem q_sound_kernel (c : Dev nD) (E : Set ℕ) (i : grid0.Coords)
    (arg1 : Memref sig .tc .vmem S512x1024 .f32) (harg1 : arg1.IsWhole)
    (arg2 : Memref sig .tc .vmem S128x1024 .f32) (harg2 : arg2.IsWhole)
    (arg3 : Memref sig .tc .vmem S512x128 .bf16) (harg3 : arg3.IsWhole)
    (x0 : Vec F S512x1024 .f32) (x1 : Vec F S128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (qout x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (qcover _)

/-! ## The region's proof data -/

/-- After the body at point t each input's buffer holds its block and the output's the projected rows; the region's
    invariant is the class's (the scoped rest and the generator register, untouched); nothing owed; full shares. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qblk V c 1 t
    | ⟨2, _⟩ => qout (qblk V c 0 t) (qblk V c 1 t)
  Φ _ := Pipeline.ΦA spec0 c
  q _ := fullShare
  owed _ := 0

theorem qA_eq (c : Dev nD) (w : Fin cfg0.W) : (qdat V c).A w = V c (Pipeline.arrRef spec0 w) := by
  dsimp only [qdat]

theorem qafter_0 (c : Dev nD) (t : Fin cfg0.N) : (qdat V c).after 0 t = qblk V c 0 t := by dsimp only [qdat]
theorem qafter_1 (c : Dev nD) (t : Fin cfg0.N) : (qdat V c).after 1 t = qblk V c 1 t := by dsimp only [qdat]
theorem qafter_2 (c : Dev nD) (t : Fin cfg0.N) : (qdat V c).after 2 t = qout (qblk V c 0 t) (qblk V c 1 t) := by dsimp only [qdat]

theorem qbefore_0 (c : Dev nD) (t : Fin cfg0.N) (d) : (qdat V c).before 0 t d = qblk V c 0 t :=
  qbefore_0_of V (qdat V c) (qA_eq V c 0) (qafter_0 V c) t d
theorem qbefore_1 (c : Dev nD) (t : Fin cfg0.N) (d) : (qdat V c).before 1 t d = qblk V c 1 t :=
  qbefore_1_of V (qdat V c) (qA_eq V c 1) (qafter_1 V c) t d

/-! ## The body obligation -/

def qbodyPre (c : Dev nD) (t : Fin cfg0.N) : sProp 𝕄 :=
  iprop((qdat V c).Φ t.castSucc ∗ (qdat V c).owesAt () t.castSucc
    ∗ (∃ d, owns (c : Thread nD τ) (st0_0 t) fullShare ((qdat V c).before 0 t d))
    ∗ (∃ d, owns (c : Thread nD τ) (st0_1 t) fullShare ((qdat V c).before 1 t d))
    ∗ (∃ d, owns (c : Thread nD τ) (st0_2 t) fullShare ((qdat V c).before 2 t d)))

def qbodyPost (c : Dev nD) (t : Fin cfg0.N) : sProp 𝕄 :=
  iprop((qdat V c).Φ t.succ ∗ (qdat V c).owesAt () t.succ
    ∗ owns (c : Thread nD τ) (st0_0 t) fullShare ((qdat V c).after 0 t)
    ∗ owns (c : Thread nD τ) (st0_1 t) fullShare ((qdat V c).after 1 t)
    ∗ owns (c : Thread nD τ) (st0_2 t) fullShare ((qdat V c).after 2 t))

theorem q_sound_body (c : Dev nD) (t : Fin cfg0.N) :
    qbodyPre V c t ⊢ wp frame (wpE (defs₀ (F := F)) Variants.none c none) Set.univ (bodyAt0 t) (fun _ => qbodyPost V c t) := by
  unfold qbodyPre qbodyPost bodyAt0
  simp only [qbefore_0, qbefore_1]
  rw [show (qdat V c).Φ t.succ = (qdat V c).Φ t.castSucc from rfl,
    show (qdat V c).owesAt () t.succ = (qdat V c).owesAt () t.castSucc from rfl,
    qafter_0, qafter_1, qafter_2]
  iintro ⟨HΦ, Ho, ⟨%d0, H0⟩, ⟨%d1, H1⟩, ⟨%d2, H2⟩⟩
  iapply (q_sound_kernel c Set.univ _ _ _ _ _ _ _ (qblk V c 0 t) (qblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem q_body_obligation (c : Dev nD) : BodyObligation (qdat (F := F) V c) (defs₀ (F := F)) Variants.none () Set.univ := fun t => by
  rw [bigSep_W0, bigSep_W0]
  exact q_sound_body V c t

end Cert.Kernel.Hand

end
-- ==== Proof.KBRegionA.lean ====
/-
  The fused attention, as one pipelined region over the grid (batch element, query tile): 4 × 8 = 32 points in
  row-major order, so the first tile of a batch element is a point divisible by eight. Per point the pipeline stages
  the tile's projected queries, the batch element's whole memory block, the three weights, and writes back the
  tile's block of the result. Two scratch buffers outlive a point: the projected keys and the projected values of
  the current batch element, written at the batch element's first tile and only read at its later tiles. So the
  region's invariant after point n says what the two scratch buffers hold: the projections of the memory block
  staged at the first tile of n's batch element.
-/
import proofs.«155551_j8581344657576_2_alg».proof.Proof.Gen.Kernel.Launch
import proofs.«155551_j8581344657576_2_alg».proof.Proof.Gen.Kernel.Skeleton
import proofs.«155551_j8581344657576_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses and what it stores -/

abbrev ar_q : Rect S1x256x128 := Rect.unit (s := S1x256x128) ![0, 0, 0] S1x256x128.size inb_S1x256x128_S1x256x128_0_0_0
abbrev ar_mem : Rect S1x2048x1024 := Rect.unit (s := S1x2048x1024) ![0, 0, 0] S1x2048x1024.size inb_S1x2048x1024_S1x2048x1024_0_0_0
abbrev ar_wk : Rect S128x1024 := Rect.unit (s := S128x1024) ![0, 0] S128x1024.size inb_S128x1024_S128x1024_0_0
abbrev ar_w : Rect S1024x1024 := Rect.unit (s := S1024x1024) ![0, 0] S1024x1024.size inb_S1024x1024_S1024x1024_0_0
abbrev ar_out : Rect S1x256x1024 := Rect.unit (s := S1x256x1024) ![0, 0, 0] S1x256x1024.size inb_S1x256x1024_S1x256x1024_0_0_0
abbrev ar_k : Rect S2048x128 := Rect.unit (s := S2048x128) ![0, 0] S2048x128.size inb_S2048x128_S2048x128_0_0
abbrev ar_v : Rect S2048x1024 := Rect.unit (s := S2048x1024) ![0, 0] S2048x1024.size inb_S2048x1024_S2048x1024_0_0

/-- The projected keys of one batch element, as the first query tile of the batch stores them over the whole key scratch. -/
def kst (x1 : Vec F S1x2048x1024 .f32) (x2 : Vec F S128x1024 .f32) : Vec F S2048x128 .bf16 :=
  View.canon [⟨ar_k, k1_pay2 (View.ld x1 ar_mem) (View.ld x2 ar_wk)⟩]
/-- The projected values of one batch element, stored over the whole value scratch. -/
def vst (x1 : Vec F S1x2048x1024 .f32) (x3 : Vec F S1024x1024 .f32) : Vec F S2048x1024 .bf16 :=
  View.canon [⟨ar_v, k1_pay3 (View.ld x1 ar_mem) (View.ld x3 ar_w)⟩]
/-- The output block of one query tile: attention of the tile's queries over the scratch keys and values, then the
    output projection, stored over the whole block. -/
def aout (x0 : Vec F S1x256x128 .bf16) (ks : Vec F S2048x128 .bf16) (vs : Vec F S2048x1024 .bf16) (x4 : Vec F S1024x1024 .f32) : Vec F S1x256x1024 .f32 :=
  View.canon [⟨ar_out, k1_pay4 (View.ld x0 ar_q) (View.ld ks ar_k) (View.ld vs ar_v) (View.ld x4 ar_w)⟩]

theorem kcover (p0 : Vec F S2048x128 .bf16) (y : S2048x128.Idx) :
    ∃ pc ∈ ([⟨ar_k, p0⟩] : List (View.Piece (Elt F) S2048x128 .bf16)), y ∈ pc.1.set :=
  View.cover_of_tiled [⟨ar_k, p0⟩] S2048x128.size (by rfl) y
theorem vcover (p0 : Vec F S2048x1024 .bf16) (y : S2048x1024.Idx) :
    ∃ pc ∈ ([⟨ar_v, p0⟩] : List (View.Piece (Elt F) S2048x1024 .bf16)), y ∈ pc.1.set :=
  View.cover_of_tiled [⟨ar_v, p0⟩] S2048x1024.size (by rfl) y
theorem ocover (p0 : Vec F S1x256x1024 .f32) (y : S1x256x1024.Idx) :
    ∃ pc ∈ ([⟨ar_out, p0⟩] : List (View.Piece (Elt F) S1x256x1024 .f32)), y ∈ pc.1.set :=
  View.cover_of_tiled [⟨ar_out, p0⟩] S1x256x1024.size (by rfl) y

/-- The body's one branch condition: the query-tile coordinate is zero. -/
abbrev tileZero (i : grid1.Coords) : Prop := (Scalar.cmpi .ne (Scalar.extui (Scalar.cmpi .eq (BitVec.ofNat 32 (i 1).val) 0#32)) 0#32) = 1#1
/-- It holds exactly at the first tile of each batch element: the points divisible by eight. -/
theorem tileZero_iff : ∀ t : Fin cfg1.N, tileZero (grid1.coords t) ↔ t.val % 8 = 0 :=
  (by decide +kernel : ∀ t : Fin grid1.N, tileZero (grid1.coords t) ↔ t.val % 8 = 0)

variable (V : (c : Dev nD) → (b : Ref sig .tc) → Buf (Elt F) ((c : Thread nD τ).loc b))

/-! ## The body's two runs -/

set_option maxHeartbeats 4000000 in
/-- At the first tile of a batch element the body projects the staged memory block to keys and values, stores them
    over the two scratch buffers, reads them back, and stores the tile's attention output over the output block. -/
theorem a_first (c : Dev nD) (E : Set ℕ) (i : grid1.Coords) (hc : tileZero i)
    (arg2 : Memref sig .tc .vmem S1x256x128 .bf16) (harg2 : arg2.IsWhole) (arg3 : Memref sig .tc .vmem S1x2048x1024 .f32) (harg3 : arg3.IsWhole)
    (arg4 : Memref sig .tc .vmem S128x1024 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x256x1024 .f32) (harg7 : arg7.IsWhole)
    (arg8 : Memref sig .tc .vmem S2048x128 .bf16) (harg8 : arg8.IsWhole) (arg9 : Memref sig .tc .vmem S2048x1024 .bf16) (harg9 : arg9.IsWhole)
    (x0 : Vec F S1x256x128 .bf16) (x1 : Vec F S1x2048x1024 .f32) (x2 : Vec F S128x1024 .f32) (x3 : Vec F S1024x1024 .f32) (x4 : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (aout x0 (kst x1 x2) (vst x1 x3) x4)
            ∗ owns (c : Thread nD τ) arg8 fullShare (kst x1 x2) ∗ owns (c : Thread nD τ) arg9 fullShare (vst x1 x3)) -∗ K ⟨⟩))
      ⊢ wp frame (wpE (defs₀ (F := F)) Variants.none c none) E (cc1__fused_attn_kernel i arg2 harg2 arg3 harg3 arg4 harg4 arg5 harg5 arg6 harg6 arg7 harg7 arg8 harg8 arg9 harg9) K := by
  simp only [cc1__fused_attn_kernel_eq_skeleton]; unfold cc1__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_run_names
    rw [View.readCov_eq_canon_ld _ _ _ (kcover _), View.readCov_eq_canon_ld _ _ _ (vcover _)]
    exact View.read_writes_eq_canon _ _ _ (ocover _)
  isplitl [H8]
  · iexists _; isplitr
    swap; · iexact H8
    ipureintro
    sl_unfold_run_names
    exact View.read_writes_eq_canon _ _ _ (kcover _)
  · iexists _; isplitr
    swap; · iexact H9
    ipureintro
    sl_unfold_run_names
    exact View.read_writes_eq_canon _ _ _ (vcover _)

set_option maxHeartbeats 4000000 in
/-- At a later tile the body leaves the two scratch buffers as it finds them and stores the tile's attention output,
    computed from them, over the output block. -/
theorem a_later (c : Dev nD) (E : Set ℕ) (i : grid1.Coords) (hc : ¬tileZero i)
    (arg2 : Memref sig .tc .vmem S1x256x128 .bf16) (harg2 : arg2.IsWhole) (arg3 : Memref sig .tc .vmem S1x2048x1024 .f32) (harg3 : arg3.IsWhole)
    (arg4 : Memref sig .tc .vmem S128x1024 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x256x1024 .f32) (harg7 : arg7.IsWhole)
    (arg8 : Memref sig .tc .vmem S2048x128 .bf16) (harg8 : arg8.IsWhole) (arg9 : Memref sig .tc .vmem S2048x1024 .bf16) (harg9 : arg9.IsWhole)
    (x0 : Vec F S1x256x128 .bf16) (x4 : Vec F S1024x1024 .f32) (ks : Vec F S2048x128 .bf16) (vs : Vec F S2048x1024 .bf16)
    (K : PUnit → sProp 𝕄) :
    iprop(owns (c : Thread nD τ) arg2 fullShare x0 ∗ owns (c : Thread nD τ) arg6 fullShare x4
        ∗ (∃ d, owns (c : Thread nD τ) arg7 fullShare d) ∗ owns (c : Thread nD τ) arg8 fullShare ks ∗ owns (c : Thread nD τ) arg9 fullShare vs
        ∗ (iprop(owns (c : Thread nD τ) arg2 fullShare x0 ∗ owns (c : Thread nD τ) arg6 fullShare x4
            ∗ owns (c : Thread nD τ) arg7 fullShare (aout x0 ks vs x4)
            ∗ owns (c : Thread nD τ) arg8 fullShare ks ∗ owns (c : Thread nD τ) arg9 fullShare vs) -∗ K ⟨⟩))
      ⊢ wp frame (wpE (defs₀ (F := F)) Variants.none c none) E (cc1__fused_attn_kernel i arg2 harg2 arg3 harg3 arg4 harg4 arg5 harg5 arg6 harg6 arg7 harg7 arg8 harg8 arg9 harg9) K := by
  simp only [cc1__fused_attn_kernel_eq_skeleton]; unfold cc1__fused_attn_kernel_skel
  unfold owns
  iintro ⟨⟨%f0, %hf0, H0⟩, ⟨%f4, %hf4, H4⟩, ⟨%d7, %f7, -, H7⟩, ⟨%f8, %hf8, H8⟩, ⟨%f9, %hf9, H9⟩, Hk⟩
  subst hf0; subst hf4; subst hf8; subst hf9
  sl_exec (disch := first | exact hc)
  sl_step
  iapply Hk
  isplitl [H0]
  · iexists f0; isplitr; · ipureintro; rfl
    iexact H0
  isplitl [H4]
  · iexists f4; isplitr; · ipureintro; rfl
    iexact H4
  isplitl [H7]
  · iexists _; isplitr
    swap; · iexact H7
    ipureintro
    exact View.read_writes_eq_canon _ _ _ (ocover _)
  isplitl [H8]
  · iexists f8; isplitr; · ipureintro; rfl
    iexact H8
  · iexists f9; isplitr; · ipureintro; rfl
    iexact H9

/-! ## The windows' blocks -/

/-- Window w's block at point t, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block, whether fetched at this point or kept from an earlier one
    (a window fetched only when its block index moves keeps a block whose index has not moved). -/
theorem abefore_0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore_1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore_2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)
theorem abefore_3_of {c : Dev nD} (dat : Dat τ (Elt F) Unit ℕ (UR sig nD τ) ℕ cfg1 c) (hA : dat.A 3 = V c (Pipeline.arrRef spec1 3))
    (hafter : ∀ t, dat.after 3 t = ablk V c 3 t) (t : Fin cfg1.N) (d) : dat.before 3 t d = ablk V c 3 t :=
  (dat.before_in_eq_fetched 3 rfl (fun _ => rfl) (fun _ _ _ => rfl) (fun t => by rw [hafter]; unfold Dat.blockOf ablk; rw [hA]; try rfl) t d).trans
    (by unfold Dat.fetched Dat.blockOf ablk; rw [hA]; try rfl)
theorem abefore_4_of {c : Dev nD} (dat : Dat τ (Elt F) Unit ℕ (UR sig nD τ) ℕ cfg1 c) (hA : dat.A 4 = V c (Pipeline.arrRef spec1 4))
    (hafter : ∀ t, dat.after 4 t = ablk V c 4 t) (t : Fin cfg1.N) (d) : dat.before 4 t d = ablk V c 4 t :=
  (dat.before_in_eq_fetched 4 rfl (fun _ => rfl) (fun _ _ _ => rfl) (fun t => by rw [hafter]; unfold Dat.blockOf ablk; rw [hA]; try rfl) t d).trans
    (by unfold Dat.fetched Dat.blockOf ablk; rw [hA]; try rfl)

/-! ## What the two scratch buffers hold after a point -/

/-- The first tile of the batch element that point n belongs to. -/
def batchStart (n : ℕ) (hn : n < cfg1.N) : Fin cfg1.N :=
  ⟨8 * (n / 8), by have hN : n < 32 := lt_of_lt_of_eq hn (show cfg1.N = 32 from N_1); rw [show cfg1.N = 32 from N_1]; omega⟩

/-- The key scratch after point n: the projection of the memory block staged at the batch element's first tile. -/
def kscr (c : Dev nD) (n : ℕ) (hn : n < cfg1.N) : Vec F S2048x128 .bf16 :=
  kst (ablk V c 1 (batchStart n hn)) (ablk V c 2 (batchStart n hn))
/-- The value scratch after point n. -/
def vscr (c : Dev nD) (n : ℕ) (hn : n < cfg1.N) : Vec F S2048x1024 .bf16 :=
  vst (ablk V c 1 (batchStart n hn)) (ablk V c 3 (batchStart n hn))

theorem batchStart_first (t : Fin cfg1.N) (h : t.val % 8 = 0) : batchStart t.val t.isLt = t :=
  Fin.ext (by simp only [batchStart]; omega)
theorem batchStart_step (t : Fin cfg1.N) (h : ¬t.val % 8 = 0) (h' : t.val - 1 < cfg1.N) : batchStart (t.val - 1) h' = batchStart t.val t.isLt :=
  Fin.ext (by simp only [batchStart]; omega)

theorem kscr_first (c : Dev nD) (t : Fin cfg1.N) (h : t.val % 8 = 0) : kscr V c t.val t.isLt = kst (ablk V c 1 t) (ablk V c 2 t) := by
  unfold kscr; rw [batchStart_first t h]
theorem vscr_first (c : Dev nD) (t : Fin cfg1.N) (h : t.val % 8 = 0) : vscr V c t.val t.isLt = vst (ablk V c 1 t) (ablk V c 3 t) := by
  unfold vscr; rw [batchStart_first t h]
theorem kscr_step (c : Dev nD) (t : Fin cfg1.N) (h : ¬t.val % 8 = 0) (h' : t.val - 1 < cfg1.N) : kscr V c (t.val - 1) h' = kscr V c t.val t.isLt := by
  unfold kscr; rw [batchStart_step t h h']
theorem vscr_step (c : Dev nD) (t : Fin cfg1.N) (h : ¬t.val % 8 = 0) (h' : t.val - 1 < cfg1.N) : vscr V c (t.val - 1) h' = vscr V c t.val t.isLt := by
  unfold vscr; rw [batchStart_step t h h']

/-! ## The region's invariant -/

abbrev scK : Memref sig .tc .vmem S2048x128 .bf16 := Memref.whole cc1_scratch0
abbrev scV : Memref sig .tc .vmem S2048x1024 .bf16 := Memref.whole cc1_scratch1

/-- A scoped buffer the body never touches (a staging buffer of the other region), whole at some contents. -/
abbrev anyAt (c : Dev nD) (b : Ref sig .tc) : sProp 𝕄 :=
  iprop(∃ f : Buf (Elt F) ((c : Thread nD τ).loc b), ((c : Thread nD τ).loc b) ↦{fullShare} f)

/-- The class's invariant with the two scratch buffers as owned memrefs at some contents. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg2_0 ∗ anyAt c cc0_stg2_1
          ∗ (∃ d, owns (c : Thread nD τ) scK fullShare d) ∗ (∃ d, owns (c : Thread nD τ) scV fullShare d)) ∗ (∃ r, prngReg c r)) := by
  unfold Pipeline.ΦA; rw [scopedRest1_eq]; simp only [anyAt, scK, scV, owns_whole]; try rfl

/-- Before the first point: the class's invariant (the scratch at anything). After point n: the two scratch buffers
    at the projections of n's batch element; the other scoped buffers at anything; the generator register at some state. -/
def attnInv (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg2_0 ∗ anyAt c cc0_stg2_1
      ∗ owns (c : Thread nD τ) scK fullShare (kscr V c n hn) ∗ owns (c : Thread nD τ) scV fullShare (vscr V c n hn)) ∗ (∃ r, prngReg c r))

theorem attnInv_zero (c : Dev nD) (n : ℕ) (h : n ≤ cfg1.N) (hz : n = 0) : attnInv V c n h = Pipeline.ΦA spec1 c := by
  subst hz; rfl
theorem attnInv_succ (c : Dev nD) (n : ℕ) (hn : n < cfg1.N) :
    attnInv V c (n + 1) hn = iprop(iprop(anyAt c cc0_stg0_0 ∗ anyAt c cc0_stg0_1 ∗ anyAt c cc0_stg1_0 ∗ anyAt c cc0_stg2_0 ∗ anyAt c cc0_stg2_1
      ∗ owns (c : Thread nD τ) scK fullShare (kscr V c n hn) ∗ owns (c : Thread nD τ) scV fullShare (vscr V c n hn)) ∗ (∃ r, prngReg c r)) := rfl
theorem attnInv_pos (c : Dev nD) (n : ℕ) (h : n ≤ cfg1.N) (hz : n ≠ 0) :
    attnInv V c n h = iprop(iprop(anyAt c cc0_stg0_0 ∗ anyAt c cc0_stg0_1 ∗ anyAt c cc0_stg1_0 ∗ anyAt c cc0_stg2_0 ∗ anyAt c cc0_stg2_1
      ∗ owns (c : Thread nD τ) scK fullShare (kscr V c (n - 1) (by omega)) ∗ owns (c : Thread nD τ) scV fullShare (vscr V c (n - 1) (by omega))) ∗ (∃ r, prngReg c r)) := by
  cases n with
  | zero => exact absurd rfl hz
  | succ n => rfl

/-! ## The region's proof data -/

/-- After the body at point t each input's buffer holds its block and the output's the tile's attention output over
    the scratch contents after t; the invariant as above; nothing owed; full shares. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => ablk V c 3 t
    | ⟨4, _⟩ => ablk V c 4 t
    | ⟨5, _⟩ => aout (ablk V c 0 t) (kscr V c t.val t.isLt) (vscr V c t.val t.isLt) (ablk V c 4 t)
  Φ t := attnInv V c t.val (Nat.le_of_lt_succ t.isLt)
  q _ := fullShare
  owed _ := 0

theorem aA_eq (c : Dev nD) (w : Fin cfg1.W) : (adat V c).A w = V c (Pipeline.arrRef spec1 w) := by
  dsimp only [adat]

theorem attnInv_castSucc (c : Dev nD) (t : Fin cfg1.N) :
    (adat V c).Φ t.castSucc = attnInv V c t.val (Nat.le_of_lt t.isLt) := by
  dsimp only [adat]; simp only [Fin.coe_castSucc]

theorem aafter_0 (c : Dev nD) (t : Fin cfg1.N) : (adat V c).after 0 t = ablk V c 0 t := by dsimp only [adat]
theorem aafter_1 (c : Dev nD) (t : Fin cfg1.N) : (adat V c).after 1 t = ablk V c 1 t := by dsimp only [adat]
theorem aafter_2 (c : Dev nD) (t : Fin cfg1.N) : (adat V c).after 2 t = ablk V c 2 t := by dsimp only [adat]
theorem aafter_3 (c : Dev nD) (t : Fin cfg1.N) : (adat V c).after 3 t = ablk V c 3 t := by dsimp only [adat]
theorem aafter_4 (c : Dev nD) (t : Fin cfg1.N) : (adat V c).after 4 t = ablk V c 4 t := by dsimp only [adat]
theorem aafter_5 (c : Dev nD) (t : Fin cfg1.N) :
    (adat V c).after 5 t = aout (ablk V c 0 t) (kscr V c t.val t.isLt) (vscr V c t.val t.isLt) (ablk V c 4 t) := by dsimp only [adat]

theorem abefore_0 (c : Dev nD) (t : Fin cfg1.N) (d) : (adat V c).before 0 t d = ablk V c 0 t :=
  abefore_0_of V (adat V c) (aA_eq V c 0) (aafter_0 V c) t d
theorem abefore_1 (c : Dev nD) (t : Fin cfg1.N) (d) : (adat V c).before 1 t d = ablk V c 1 t :=
  abefore_1_of V (adat V c) (aA_eq V c 1) (aafter_1 V c) t d
theorem abefore_2 (c : Dev nD) (t : Fin cfg1.N) (d) : (adat V c).before 2 t d = ablk V c 2 t :=
  abefore_2_of V (adat V c) (aA_eq V c 2) (aafter_2 V c) t d
theorem abefore_3 (c : Dev nD) (t : Fin cfg1.N) (d) : (adat V c).before 3 t d = ablk V c 3 t :=
  abefore_3_of V (adat V c) (aA_eq V c 3) (aafter_3 V c) t d
theorem abefore_4 (c : Dev nD) (t : Fin cfg1.N) (d) : (adat V c).before 4 t d = ablk V c 4 t :=
  abefore_4_of V (adat V c) (aA_eq V c 4) (aafter_4 V c) t d

/-! ## The body obligation -/

def abodyPre (c : Dev nD) (t : Fin cfg1.N) : sProp 𝕄 :=
  iprop((adat V c).Φ t.castSucc ∗ (adat V c).owesAt () t.castSucc
    ∗ (∃ d, owns (c : Thread nD τ) (st1_0 t) fullShare ((adat V c).before 0 t d))
    ∗ (∃ d, owns (c : Thread nD τ) (st1_1 t) fullShare ((adat V c).before 1 t d))
    ∗ (∃ d, owns (c : Thread nD τ) (st1_2 t) fullShare ((adat V c).before 2 t d))
    ∗ (∃ d, owns (c : Thread nD τ) (st1_3 t) fullShare ((adat V c).before 3 t d))
    ∗ (∃ d, owns (c : Thread nD τ) (st1_4 t) fullShare ((adat V c).before 4 t d))
    ∗ (∃ d, owns (c : Thread nD τ) (st1_5 t) fullShare ((adat V c).before 5 t d)))

def abodyPost (c : Dev nD) (t : Fin cfg1.N) : sProp 𝕄 :=
  iprop((adat V c).Φ t.succ ∗ (adat V c).owesAt () t.succ
    ∗ owns (c : Thread nD τ) (st1_0 t) fullShare ((adat V c).after 0 t)
    ∗ owns (c : Thread nD τ) (st1_1 t) fullShare ((adat V c).after 1 t)
    ∗ owns (c : Thread nD τ) (st1_2 t) fullShare ((adat V c).after 2 t)
    ∗ owns (c : Thread nD τ) (st1_3 t) fullShare ((adat V c).after 3 t)
    ∗ owns (c : Thread nD τ) (st1_4 t) fullShare ((adat V c).after 4 t)
    ∗ owns (c : Thread nD τ) (st1_5 t) fullShare ((adat V c).after 5 t))

set_option maxHeartbeats 4000000 in
/-- The body at any point. The inputs' buffers hold their blocks. At a batch element's first tile the invariant hands
    over the scratch at anything (the launch's, or the previous batch element's projections, forgotten) and takes it
    back at this batch element's projections; at a later tile it hands over the projections the tile before left,
    which are this tile's, and takes them back unchanged. -/
theorem a_sound_body (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore_0, abefore_1, abefore_2, abefore_3, abefore_4]
  rw [show (adat V c).owesAt () t.succ = (adat V c).owesAt () t.castSucc from rfl]
  rw [show (adat V c).Φ t.succ = attnInv V c (t.val + 1) t.isLt from rfl, attnInv_succ]
  rw [aafter_0, aafter_1, aafter_2, aafter_3, aafter_4, aafter_5]
  have hN : t.val < 32 := lt_of_lt_of_eq t.isLt (show cfg1.N = 32 from N_1)
  by_cases h0 : t.val % 8 = 0
  · rw [kscr_first V c t h0, vscr_first V c t h0]
    by_cases hz : t.val = 0
    · rw [attnInv_castSucc V c t, attnInv_zero V c _ _ hz, PhiA1_eq]
      iintro ⟨⟨⟨HA1, HA2, HA3, HA4, HA5, HS0, HS1⟩, Hg⟩, Ho, ⟨%d0, H0⟩, ⟨%d1, H1⟩, ⟨%d2, H2⟩, ⟨%d3, H3⟩, ⟨%d4, H4⟩, ⟨%d5, H5⟩⟩
      iapply (a_first c Set.univ (grid1.coords t) ((tileZero_iff t).mpr h0) _ _ _ _ _ _ _ _ _ _ _ _ _ _ _ _
        (ablk V c 0 t) (ablk V c 1 t) (ablk V c 2 t) (ablk V c 3 t) (ablk V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HA1 HA2 HA3 HA4 HA5 HS0 HS1 Hg]
      · isplitr [Hg]
        · isplitl [HA1]; · iexact HA1
          isplitl [HA2]; · iexact HA2
          isplitl [HA3]; · iexact HA3
          isplitl [HA4]; · iexact HA4
          isplitl [HA5]; · iexact HA5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [attnInv_castSucc V c t, attnInv_pos V c _ _ hz]
      iintro ⟨⟨⟨HA1, HA2, HA3, HA4, HA5, HS0, HS1⟩, Hg⟩, Ho, ⟨%d0, H0⟩, ⟨%d1, H1⟩, ⟨%d2, H2⟩, ⟨%d3, H3⟩, ⟨%d4, H4⟩, ⟨%d5, H5⟩⟩
      iapply (a_first c Set.univ (grid1.coords t) ((tileZero_iff t).mpr h0) _ _ _ _ _ _ _ _ _ _ _ _ _ _ _ _
        (ablk V c 0 t) (ablk V c 1 t) (ablk V c 2 t) (ablk V c 3 t) (ablk V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, H5, HS0, HS1⟩
      isplitl [HA1 HA2 HA3 HA4 HA5 HS0 HS1 Hg]
      · isplitr [Hg]
        · isplitl [HA1]; · iexact HA1
          isplitl [HA2]; · iexact HA2
          isplitl [HA3]; · iexact HA3
          isplitl [HA4]; · iexact HA4
          isplitl [HA5]; · iexact HA5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [attnInv_castSucc V c t, attnInv_pos V c _ _ hz, kscr_step V c t h0, vscr_step V c t h0]
    iintro ⟨⟨⟨HA1, HA2, HA3, HA4, HA5, HS0, HS1⟩, Hg⟩, Ho, ⟨%d0, H0⟩, ⟨%d1, H1⟩, ⟨%d2, H2⟩, ⟨%d3, H3⟩, ⟨%d4, H4⟩, ⟨%d5, H5⟩⟩
    iapply (a_later c Set.univ (grid1.coords t) (fun h => h0 ((tileZero_iff t).mp h)) _ _ _ _ _ _ _ _ _ _ _ _ _ _ _ _
      (ablk V c 0 t) (ablk V c 4 t) (kscr V c t.val t.isLt) (vscr V c t.val t.isLt) _)
    isplitl [H0]; · iexact H0
    isplitl [H4]; · iexact H4
    isplitl [H5]; · iexists _; iexact H5
    isplitl [HS0]; · iexact HS0
    isplitl [HS1]; · iexact HS1
    iintro ⟨H0, H4, H5, HS0, HS1⟩
    isplitl [HA1 HA2 HA3 HA4 HA5 HS0 HS1 Hg]
    · isplitr [Hg]
      · isplitl [HA1]; · iexact HA1
        isplitl [HA2]; · iexact HA2
        isplitl [HA3]; · iexact HA3
        isplitl [HA4]; · iexact HA4
        isplitl [HA5]; · iexact HA5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem a_body_obligation (c : Dev nD) : BodyObligation (adat (F := F) V c) (defs₀ (F := F)) Variants.none () Set.univ := fun t => by
  rw [bigSep_W1, bigSep_W1]
  exact a_sound_body V c t

/-- What the launch hands the region is the invariant before the first point. -/
theorem a_hin (c : Dev nD) : Pipeline.ΦA spec1 c ⊢ (adat V c).Φ 0 := by
  rw [show (adat V c).Φ 0 = attnInv V c 0 (Nat.zero_le _) from rfl, attnInv_zero V c 0 _ rfl]
  try exact Idealize.SL.BI.Entails.refl _

/-- After the last point the invariant gives the class's back: what the scratch holds is forgotten. -/
theorem a_hout (c : Dev nD) : (adat V c).Φ (Fin.last cfg1.N) ⊢ Pipeline.ΦA spec1 c := by
  rw [show (adat V c).Φ (Fin.last cfg1.N) = attnInv V c (Fin.last cfg1.N).val (Nat.le_of_lt_succ (Fin.last cfg1.N).isLt) from rfl,
    attnInv_pos V c _ _ (by rw [Fin.val_last]; have : cfg1.N = 32 := N_1; omega), PhiA1_eq]
  iintro ⟨⟨HA1, HA2, HA3, HA4, HA5, HS0, HS1⟩, Hg⟩
  isplitr [Hg]
  · isplitl [HA1]; · iexact HA1
    isplitl [HA2]; · iexact HA2
    isplitl [HA3]; · iexact HA3
    isplitl [HA4]; · iexact HA4
    isplitl [HA5]; · iexact HA5
    isplitl [HS0]; · iexists _; iexact HS0
    iexists _; iexact HS1
  iexact Hg

end Cert.Kernel.Hand

end
-- ==== Proof.KBRun.lean ====
/-
  The whole program as four segments: the host reshape of the target, the query-projection region, the host
  reshape of the projected queries, the attention region. Between segments every unscoped buffer of the core is
  held whole at a named valuation: the launch memory, then each host stretch applied, then each region's arrays at
  what its write-backs leave. The run reads the last valuation back off the final state: the result array at what
  the attention region's write-backs leave, and every argument array, which no segment writes, at its launch contents.
-/
import proofs.«155551_j8581344657576_2_alg».proof.Proof.KBRegionQ
import proofs.«155551_j8581344657576_2_alg».proof.Proof.KBRegionA
import proofs.«155551_j8581344657576_2_alg».proof.Proof.Gen.Kernel.Regions
import Idealize.ShloMosaic.Adequacy
import Idealize.ShloMosaic.Init

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the query-projection region: its arrays at what the pipeline leaves, every other buffer as entered. -/
def W2 (c : Dev nD) : Valuation τ sig (Elt F) :=
  Pipeline.withArrays spec0 c (W1 m ρ c) fun w => (qdat (V1 m ρ) c).arrAt w cfg0.N
theorem W2_arr (c : Dev nD) (w : Fin cfg0.W) :
    W2 m ρ c (Proc.devRef .tc (Pipeline.arrRef spec0 w)) = (qdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (qdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its arrays at what the pipeline leaves, every other buffer as entered. -/
def W4 (c : Dev nD) : Valuation τ sig (Elt F) :=
  Pipeline.withArrays spec1 c (W3 m ρ c) fun w => (adat (V3 m ρ) c).arrAt w cfg1.N
theorem W4_arr (c : Dev nD) (w : Fin cfg1.W) :
    W4 m ρ c (Proc.devRef .tc (Pipeline.arrRef spec1 w)) = (adat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (adat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, and a region reads it through an input window or not at all -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((adat (V3 m ρ) c).arrAt_in 1 rfl _).trans (aA_eq (V3 m ρ) c 1))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 1).trans (((qdat (V1 m ρ) c).arrAt_in 1 rfl _).trans (qA_eq (V1 m ρ) c 1))
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 2).trans (((adat (V3 m ρ) c).arrAt_in 2 rfl _).trans (aA_eq (V3 m ρ) c 2))
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 3).trans (((adat (V3 m ρ) c).arrAt_in 3 rfl _).trans (aA_eq (V3 m ρ) c 3))
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 4).trans (((adat (V3 m ρ) c).arrAt_in 4 rfl _).trans (aA_eq (V3 m ρ) c 4))
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- The result array ends at what the attention region's write-backs leave in it. -/
theorem W4_main_v3 (c : Dev nD) : W4 m ρ c (Proc.devRef .tc main_v3) = (adat (V3 m ρ) c).arrAt 5 cfg1.N :=
  W4_arr m ρ c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => qdat (V1 m ρ) c
  | ⟨1, _⟩ => fun c => adat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

/-- The generator register and the scoped rest make the class's invariant (the tables: there are none). -/
theorem a_in_class (c : Dev nD) :
    (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) (Pipeline.pin (pcfgs (F := F)) adm 1).spec c) : sProp 𝕄)
      ⊢ Pipeline.ΦA spec1 c := by
  unfold Pipeline.ΦA
  iintro ⟨Hp, -, Hr⟩
  isplitl [Hr]; · iexact Hr
  iexact Hp
/-- And the class's invariant gives them back. -/
theorem a_class_out (c : Dev nD) :
    (Pipeline.ΦA spec1 c : sProp 𝕄)
      ⊢ iprop((∃ r, prngReg c r) ∗ BI.emp
        ∗ Pipeline.scopedRest (Ix := Unit) (Name := ℕ) (U := UR sig nD τ) (Lvl := ℕ) (Val := Elt F) (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- The query-projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (q_body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4. The invariant
    takes the scoped rest (the scratch at anything) in at the first point and gives it back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (a_body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (a_in_class c).trans (a_hin (V3 m ρ) c)
  hout c := by
    rw [Pipeline.ownSems0_none]
    exact (a_hout (V3 m ρ) c).trans (a_class_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final state holds the result array at what the attention region's write-backs leave and every argument
    array at its launch contents. -/
theorem run_all : θ_run defs (onTc (τ := τ) (main (F := F))) ⟨m, fun _ => 0, ρ⟩ (fun r => ∀ c : Dev nD,
      r.2.mem ((c.tc : Thread nD τ).loc main_v3) = (adat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_main_v3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.Kernel.Hand

end
-- ==== Proof.KIRegionQ.lean ====
/-
  The query projection, as one pipelined region: sixteen grid points, point t staging rows 512·t … 512·t+511 of the
  flattened target (window 0), the whole projection weight (window 1), and writing back the same rows of the
  projected queries (window 2). The body reads both input blocks and stores, over the whole output block, the
  product of the target rows with the transposed weight. Stated at a parameter V: the core's buffer contents
  when the region is entered.
-/
import proofs.«155551_j8581344657576_2_alg».proof.Proof.Gen.KernelIdeal.Launch
import proofs.«155551_j8581344657576_2_alg».proof.Proof.Gen.KernelIdeal.Skeleton
import proofs.«155551_j8581344657576_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The target rows' staging buffer holds the point's block, whether fetched at this point or kept from the one before. -/
theorem qbefore_0_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- The weight's staging buffer holds the whole weight at every point: fetched once, its block index never moves. -/
theorem qbefore_1_of {c : Dev nD} (dat : Dat τ (Elt F) Unit ℕ (UR sig nD τ) ℕ cfg0 c) (hA : dat.A 1 = V c (Pipeline.arrRef spec0 1))
    (hafter : ∀ t, dat.after 1 t = qblk V c 1 t) (t : Fin cfg0.N) (d) : dat.before 1 t d = qblk V c 1 t :=
  (dat.before_in_eq_fetched 1 rfl (fun _ => rfl) (fun _ _ _ => rfl) (fun t => by rw [hafter]; unfold Dat.blockOf qblk; rw [hA]; try rfl) t d).trans
    (by unfold Dat.fetched Dat.blockOf qblk; rw [hA]; try rfl)

/-! ## What the body leaves in the output block -/

abbrev qr_in0 : Rect S512x1024 := Rect.unit (s := S512x1024) ![0, 0] S512x1024.size inb_S512x1024_S512x1024_0_0
abbrev qr_in1 : Rect S128x1024 := Rect.unit (s := S128x1024) ![0, 0] S128x1024.size inb_S128x1024_S128x1024_0_0
abbrev qr_out : Rect S512x128 := Rect.unit (s := S512x128) ![0, 0] S512x128.size inb_S512x128_S512x128_0_0

/-- The output block after the body: its one store, over the whole block, of the projected rows. -/
def qout (x0 : Vec F S512x1024 .f32) (x1 : Vec F S128x1024 .f32) : Vec F S512x128 .bf16 :=
  View.canon [⟨qr_out, k0_pay1 (View.ld x0 qr_in0) (View.ld x1 qr_in1)⟩]

/-- The one store covers the block. -/
theorem qcover (p0 : Vec F S512x128 .bf16) (y : S512x128.Idx) :
    ∃ pc ∈ ([⟨qr_out, p0⟩] : List (View.Piece (Elt F) S512x128 .bf16)), y ∈ pc.1.set :=
  View.cover_of_tiled [⟨qr_out, p0⟩] S512x128.size (by rfl) y

/-! ## The body's triple -/

set_option maxHeartbeats 1000000 in
/-- On whole staging buffers, the inputs' at known contents and the output's at anything, the body runs to the end,
    leaving the inputs as they were and the output at the projected rows. -/
theorem q_sound_kernel (c : Dev nD) (E : Set ℕ) (i : grid0.Coords)
    (arg1 : Memref sig .tc .vmem S512x1024 .f32) (harg1 : arg1.IsWhole)
    (arg2 : Memref sig .tc .vmem S128x1024 .f32) (harg2 : arg2.IsWhole)
    (arg3 : Memref sig .tc .vmem S512x128 .bf16) (harg3 : arg3.IsWhole)
    (x0 : Vec F S512x1024 .f32) (x1 : Vec F S128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (qout x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (qcover _)

/-! ## The region's proof data -/

/-- After the body at point t each input's buffer holds its block and the output's the projected rows; the region's
    invariant is the class's (the scoped rest and the generator register, untouched); nothing owed; full shares. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qblk V c 1 t
    | ⟨2, _⟩ => qout (qblk V c 0 t) (qblk V c 1 t)
  Φ _ := Pipeline.ΦA spec0 c
  q _ := fullShare
  owed _ := 0

theorem qA_eq (c : Dev nD) (w : Fin cfg0.W) : (qdat V c).A w = V c (Pipeline.arrRef spec0 w) := by
  dsimp only [qdat]

theorem qafter_0 (c : Dev nD) (t : Fin cfg0.N) : (qdat V c).after 0 t = qblk V c 0 t := by dsimp only [qdat]
theorem qafter_1 (c : Dev nD) (t : Fin cfg0.N) : (qdat V c).after 1 t = qblk V c 1 t := by dsimp only [qdat]
theorem qafter_2 (c : Dev nD) (t : Fin cfg0.N) : (qdat V c).after 2 t = qout (qblk V c 0 t) (qblk V c 1 t) := by dsimp only [qdat]

theorem qbefore_0 (c : Dev nD) (t : Fin cfg0.N) (d) : (qdat V c).before 0 t d = qblk V c 0 t :=
  qbefore_0_of V (qdat V c) (qA_eq V c 0) (qafter_0 V c) t d
theorem qbefore_1 (c : Dev nD) (t : Fin cfg0.N) (d) : (qdat V c).before 1 t d = qblk V c 1 t :=
  qbefore_1_of V (qdat V c) (qA_eq V c 1) (qafter_1 V c) t d

/-! ## The body obligation -/

def qbodyPre (c : Dev nD) (t : Fin cfg0.N) : sProp 𝕄 :=
  iprop((qdat V c).Φ t.castSucc ∗ (qdat V c).owesAt () t.castSucc
    ∗ (∃ d, owns (c : Thread nD τ) (st0_0 t) fullShare ((qdat V c).before 0 t d))
    ∗ (∃ d, owns (c : Thread nD τ) (st0_1 t) fullShare ((qdat V c).before 1 t d))
    ∗ (∃ d, owns (c : Thread nD τ) (st0_2 t) fullShare ((qdat V c).before 2 t d)))

def qbodyPost (c : Dev nD) (t : Fin cfg0.N) : sProp 𝕄 :=
  iprop((qdat V c).Φ t.succ ∗ (qdat V c).owesAt () t.succ
    ∗ owns (c : Thread nD τ) (st0_0 t) fullShare ((qdat V c).after 0 t)
    ∗ owns (c : Thread nD τ) (st0_1 t) fullShare ((qdat V c).after 1 t)
    ∗ owns (c : Thread nD τ) (st0_2 t) fullShare ((qdat V c).after 2 t))

theorem q_sound_body (c : Dev nD) (t : Fin cfg0.N) :
    qbodyPre V c t ⊢ wp frame (wpE (defs₀ (F := F)) Variants.none c none) Set.univ (bodyAt0 t) (fun _ => qbodyPost V c t) := by
  unfold qbodyPre qbodyPost bodyAt0
  simp only [qbefore_0, qbefore_1]
  rw [show (qdat V c).Φ t.succ = (qdat V c).Φ t.castSucc from rfl,
    show (qdat V c).owesAt () t.succ = (qdat V c).owesAt () t.castSucc from rfl,
    qafter_0, qafter_1, qafter_2]
  iintro ⟨HΦ, Ho, ⟨%d0, H0⟩, ⟨%d1, H1⟩, ⟨%d2, H2⟩⟩
  iapply (q_sound_kernel c Set.univ _ _ _ _ _ _ _ (qblk V c 0 t) (qblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem q_body_obligation (c : Dev nD) : BodyObligation (qdat (F := F) V c) (defs₀ (F := F)) Variants.none () Set.univ := fun t => by
  rw [bigSep_W0, bigSep_W0]
  exact q_sound_body V c t

end Cert.KernelIdeal.Hand

end
-- ==== Proof.KIRegionA.lean ====
/-
  The fused attention, as one pipelined region over the grid (batch element, query tile): 4 × 8 = 32 points in
  row-major order, so the first tile of a batch element is a point divisible by eight. Per point the pipeline stages
  the tile's projected queries, the batch element's whole memory block, the three weights, and writes back the
  tile's block of the result. Two scratch buffers outlive a point: the projected keys and the projected values of
  the current batch element, written at the batch element's first tile and only read at its later tiles. So the
  region's invariant after point n says what the two scratch buffers hold: the projections of the memory block
  staged at the first tile of n's batch element.
-/
import proofs.«155551_j8581344657576_2_alg».proof.Proof.Gen.KernelIdeal.Launch
import proofs.«155551_j8581344657576_2_alg».proof.Proof.Gen.KernelIdeal.Skeleton
import proofs.«155551_j8581344657576_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses and what it stores -/

abbrev ar_q : Rect S1x256x128 := Rect.unit (s := S1x256x128) ![0, 0, 0] S1x256x128.size inb_S1x256x128_S1x256x128_0_0_0
abbrev ar_mem : Rect S1x2048x1024 := Rect.unit (s := S1x2048x1024) ![0, 0, 0] S1x2048x1024.size inb_S1x2048x1024_S1x2048x1024_0_0_0
abbrev ar_wk : Rect S128x1024 := Rect.unit (s := S128x1024) ![0, 0] S128x1024.size inb_S128x1024_S128x1024_0_0
abbrev ar_w : Rect S1024x1024 := Rect.unit (s := S1024x1024) ![0, 0] S1024x1024.size inb_S1024x1024_S1024x1024_0_0
abbrev ar_out : Rect S1x256x1024 := Rect.unit (s := S1x256x1024) ![0, 0, 0] S1x256x1024.size inb_S1x256x1024_S1x256x1024_0_0_0
abbrev ar_k : Rect S2048x128 := Rect.unit (s := S2048x128) ![0, 0] S2048x128.size inb_S2048x128_S2048x128_0_0
abbrev ar_v : Rect S2048x1024 := Rect.unit (s := S2048x1024) ![0, 0] S2048x1024.size inb_S2048x1024_S2048x1024_0_0

/-- The projected keys of one batch element, as the first query tile of the batch stores them over the whole key scratch. -/
def kst (x1 : Vec F S1x2048x1024 .f32) (x2 : Vec F S128x1024 .f32) : Vec F S2048x128 .bf16 :=
  View.canon [⟨ar_k, k1_pay2 (View.ld x1 ar_mem) (View.ld x2 ar_wk)⟩]
/-- The projected values of one batch element, stored over the whole value scratch. -/
def vst (x1 : Vec F S1x2048x1024 .f32) (x3 : Vec F S1024x1024 .f32) : Vec F S2048x1024 .bf16 :=
  View.canon [⟨ar_v, k1_pay3 (View.ld x1 ar_mem) (View.ld x3 ar_w)⟩]
/-- The output block of one query tile: attention of the tile's queries over the scratch keys and values, then the
    output projection, stored over the whole block. -/
def aout (x0 : Vec F S1x256x128 .bf16) (ks : Vec F S2048x128 .bf16) (vs : Vec F S2048x1024 .bf16) (x4 : Vec F S1024x1024 .f32) : Vec F S1x256x1024 .f32 :=
  View.canon [⟨ar_out, k1_pay4 (View.ld x0 ar_q) (View.ld ks ar_k) (View.ld vs ar_v) (View.ld x4 ar_w)⟩]

theorem kcover (p0 : Vec F S2048x128 .bf16) (y : S2048x128.Idx) :
    ∃ pc ∈ ([⟨ar_k, p0⟩] : List (View.Piece (Elt F) S2048x128 .bf16)), y ∈ pc.1.set :=
  View.cover_of_tiled [⟨ar_k, p0⟩] S2048x128.size (by rfl) y
theorem vcover (p0 : Vec F S2048x1024 .bf16) (y : S2048x1024.Idx) :
    ∃ pc ∈ ([⟨ar_v, p0⟩] : List (View.Piece (Elt F) S2048x1024 .bf16)), y ∈ pc.1.set :=
  View.cover_of_tiled [⟨ar_v, p0⟩] S2048x1024.size (by rfl) y
theorem ocover (p0 : Vec F S1x256x1024 .f32) (y : S1x256x1024.Idx) :
    ∃ pc ∈ ([⟨ar_out, p0⟩] : List (View.Piece (Elt F) S1x256x1024 .f32)), y ∈ pc.1.set :=
  View.cover_of_tiled [⟨ar_out, p0⟩] S1x256x1024.size (by rfl) y

/-- The body's one branch condition: the query-tile coordinate is zero. -/
abbrev tileZero (i : grid1.Coords) : Prop := (Scalar.cmpi .ne (Scalar.extui (Scalar.cmpi .eq (BitVec.ofNat 32 (i 1).val) 0#32)) 0#32) = 1#1
/-- It holds exactly at the first tile of each batch element: the points divisible by eight. -/
theorem tileZero_iff : ∀ t : Fin cfg1.N, tileZero (grid1.coords t) ↔ t.val % 8 = 0 :=
  (by decide +kernel : ∀ t : Fin grid1.N, tileZero (grid1.coords t) ↔ t.val % 8 = 0)

variable (V : (c : Dev nD) → (b : Ref sig .tc) → Buf (Elt F) ((c : Thread nD τ).loc b))

/-! ## The body's two runs -/

set_option maxHeartbeats 4000000 in
/-- At the first tile of a batch element the body projects the staged memory block to keys and values, stores them
    over the two scratch buffers, reads them back, and stores the tile's attention output over the output block. -/
theorem a_first (c : Dev nD) (E : Set ℕ) (i : grid1.Coords) (hc : tileZero i)
    (arg2 : Memref sig .tc .vmem S1x256x128 .bf16) (harg2 : arg2.IsWhole) (arg3 : Memref sig .tc .vmem S1x2048x1024 .f32) (harg3 : arg3.IsWhole)
    (arg4 : Memref sig .tc .vmem S128x1024 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x256x1024 .f32) (harg7 : arg7.IsWhole)
    (arg8 : Memref sig .tc .vmem S2048x128 .bf16) (harg8 : arg8.IsWhole) (arg9 : Memref sig .tc .vmem S2048x1024 .bf16) (harg9 : arg9.IsWhole)
    (x0 : Vec F S1x256x128 .bf16) (x1 : Vec F S1x2048x1024 .f32) (x2 : Vec F S128x1024 .f32) (x3 : Vec F S1024x1024 .f32) (x4 : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (aout x0 (kst x1 x2) (vst x1 x3) x4)
            ∗ owns (c : Thread nD τ) arg8 fullShare (kst x1 x2) ∗ owns (c : Thread nD τ) arg9 fullShare (vst x1 x3)) -∗ K ⟨⟩))
      ⊢ wp frame (wpE (defs₀ (F := F)) Variants.none c none) E (cc1__fused_attn_kernel i arg2 harg2 arg3 harg3 arg4 harg4 arg5 harg5 arg6 harg6 arg7 harg7 arg8 harg8 arg9 harg9) K := by
  simp only [cc1__fused_attn_kernel_eq_skeleton]; unfold cc1__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_run_names
    rw [View.readCov_eq_canon_ld _ _ _ (kcover _), View.readCov_eq_canon_ld _ _ _ (vcover _)]
    exact View.read_writes_eq_canon _ _ _ (ocover _)
  isplitl [H8]
  · iexists _; isplitr
    swap; · iexact H8
    ipureintro
    sl_unfold_run_names
    exact View.read_writes_eq_canon _ _ _ (kcover _)
  · iexists _; isplitr
    swap; · iexact H9
    ipureintro
    sl_unfold_run_names
    exact View.read_writes_eq_canon _ _ _ (vcover _)

set_option maxHeartbeats 4000000 in
/-- At a later tile the body leaves the two scratch buffers as it finds them and stores the tile's attention output,
    computed from them, over the output block. -/
theorem a_later (c : Dev nD) (E : Set ℕ) (i : grid1.Coords) (hc : ¬tileZero i)
    (arg2 : Memref sig .tc .vmem S1x256x128 .bf16) (harg2 : arg2.IsWhole) (arg3 : Memref sig .tc .vmem S1x2048x1024 .f32) (harg3 : arg3.IsWhole)
    (arg4 : Memref sig .tc .vmem S128x1024 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x256x1024 .f32) (harg7 : arg7.IsWhole)
    (arg8 : Memref sig .tc .vmem S2048x128 .bf16) (harg8 : arg8.IsWhole) (arg9 : Memref sig .tc .vmem S2048x1024 .bf16) (harg9 : arg9.IsWhole)
    (x0 : Vec F S1x256x128 .bf16) (x4 : Vec F S1024x1024 .f32) (ks : Vec F S2048x128 .bf16) (vs : Vec F S2048x1024 .bf16)
    (K : PUnit → sProp 𝕄) :
    iprop(owns (c : Thread nD τ) arg2 fullShare x0 ∗ owns (c : Thread nD τ) arg6 fullShare x4
        ∗ (∃ d, owns (c : Thread nD τ) arg7 fullShare d) ∗ owns (c : Thread nD τ) arg8 fullShare ks ∗ owns (c : Thread nD τ) arg9 fullShare vs
        ∗ (iprop(owns (c : Thread nD τ) arg2 fullShare x0 ∗ owns (c : Thread nD τ) arg6 fullShare x4
            ∗ owns (c : Thread nD τ) arg7 fullShare (aout x0 ks vs x4)
            ∗ owns (c : Thread nD τ) arg8 fullShare ks ∗ owns (c : Thread nD τ) arg9 fullShare vs) -∗ K ⟨⟩))
      ⊢ wp frame (wpE (defs₀ (F := F)) Variants.none c none) E (cc1__fused_attn_kernel i arg2 harg2 arg3 harg3 arg4 harg4 arg5 harg5 arg6 harg6 arg7 harg7 arg8 harg8 arg9 harg9) K := by
  simp only [cc1__fused_attn_kernel_eq_skeleton]; unfold cc1__fused_attn_kernel_skel
  unfold owns
  iintro ⟨⟨%f0, %hf0, H0⟩, ⟨%f4, %hf4, H4⟩, ⟨%d7, %f7, -, H7⟩, ⟨%f8, %hf8, H8⟩, ⟨%f9, %hf9, H9⟩, Hk⟩
  subst hf0; subst hf4; subst hf8; subst hf9
  sl_exec (disch := first | exact hc)
  sl_step
  iapply Hk
  isplitl [H0]
  · iexists f0; isplitr; · ipureintro; rfl
    iexact H0
  isplitl [H4]
  · iexists f4; isplitr; · ipureintro; rfl
    iexact H4
  isplitl [H7]
  · iexists _; isplitr
    swap; · iexact H7
    ipureintro
    exact View.read_writes_eq_canon _ _ _ (ocover _)
  isplitl [H8]
  · iexists f8; isplitr; · ipureintro; rfl
    iexact H8
  · iexists f9; isplitr; · ipureintro; rfl
    iexact H9

/-! ## The windows' blocks -/

/-- Window w's block at point t, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block, whether fetched at this point or kept from an earlier one
    (a window fetched only when its block index moves keeps a block whose index has not moved). -/
theorem abefore_0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore_1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore_2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)
theorem abefore_3_of {c : Dev nD} (dat : Dat τ (Elt F) Unit ℕ (UR sig nD τ) ℕ cfg1 c) (hA : dat.A 3 = V c (Pipeline.arrRef spec1 3))
    (hafter : ∀ t, dat.after 3 t = ablk V c 3 t) (t : Fin cfg1.N) (d) : dat.before 3 t d = ablk V c 3 t :=
  (dat.before_in_eq_fetched 3 rfl (fun _ => rfl) (fun _ _ _ => rfl) (fun t => by rw [hafter]; unfold Dat.blockOf ablk; rw [hA]; try rfl) t d).trans
    (by unfold Dat.fetched Dat.blockOf ablk; rw [hA]; try rfl)
theorem abefore_4_of {c : Dev nD} (dat : Dat τ (Elt F) Unit ℕ (UR sig nD τ) ℕ cfg1 c) (hA : dat.A 4 = V c (Pipeline.arrRef spec1 4))
    (hafter : ∀ t, dat.after 4 t = ablk V c 4 t) (t : Fin cfg1.N) (d) : dat.before 4 t d = ablk V c 4 t :=
  (dat.before_in_eq_fetched 4 rfl (fun _ => rfl) (fun _ _ _ => rfl) (fun t => by rw [hafter]; unfold Dat.blockOf ablk; rw [hA]; try rfl) t d).trans
    (by unfold Dat.fetched Dat.blockOf ablk; rw [hA]; try rfl)

/-! ## What the two scratch buffers hold after a point -/

/-- The first tile of the batch element that point n belongs to. -/
def batchStart (n : ℕ) (hn : n < cfg1.N) : Fin cfg1.N :=
  ⟨8 * (n / 8), by have hN : n < 32 := lt_of_lt_of_eq hn (show cfg1.N = 32 from N_1); rw [show cfg1.N = 32 from N_1]; omega⟩

/-- The key scratch after point n: the projection of the memory block staged at the batch element's first tile. -/
def kscr (c : Dev nD) (n : ℕ) (hn : n < cfg1.N) : Vec F S2048x128 .bf16 :=
  kst (ablk V c 1 (batchStart n hn)) (ablk V c 2 (batchStart n hn))
/-- The value scratch after point n. -/
def vscr (c : Dev nD) (n : ℕ) (hn : n < cfg1.N) : Vec F S2048x1024 .bf16 :=
  vst (ablk V c 1 (batchStart n hn)) (ablk V c 3 (batchStart n hn))

theorem batchStart_first (t : Fin cfg1.N) (h : t.val % 8 = 0) : batchStart t.val t.isLt = t :=
  Fin.ext (by simp only [batchStart]; omega)
theorem batchStart_step (t : Fin cfg1.N) (h : ¬t.val % 8 = 0) (h' : t.val - 1 < cfg1.N) : batchStart (t.val - 1) h' = batchStart t.val t.isLt :=
  Fin.ext (by simp only [batchStart]; omega)

theorem kscr_first (c : Dev nD) (t : Fin cfg1.N) (h : t.val % 8 = 0) : kscr V c t.val t.isLt = kst (ablk V c 1 t) (ablk V c 2 t) := by
  unfold kscr; rw [batchStart_first t h]
theorem vscr_first (c : Dev nD) (t : Fin cfg1.N) (h : t.val % 8 = 0) : vscr V c t.val t.isLt = vst (ablk V c 1 t) (ablk V c 3 t) := by
  unfold vscr; rw [batchStart_first t h]
theorem kscr_step (c : Dev nD) (t : Fin cfg1.N) (h : ¬t.val % 8 = 0) (h' : t.val - 1 < cfg1.N) : kscr V c (t.val - 1) h' = kscr V c t.val t.isLt := by
  unfold kscr; rw [batchStart_step t h h']
theorem vscr_step (c : Dev nD) (t : Fin cfg1.N) (h : ¬t.val % 8 = 0) (h' : t.val - 1 < cfg1.N) : vscr V c (t.val - 1) h' = vscr V c t.val t.isLt := by
  unfold vscr; rw [batchStart_step t h h']

/-! ## The region's invariant -/

abbrev scK : Memref sig .tc .vmem S2048x128 .bf16 := Memref.whole cc1_scratch0
abbrev scV : Memref sig .tc .vmem S2048x1024 .bf16 := Memref.whole cc1_scratch1

/-- A scoped buffer the body never touches (a staging buffer of the other region), whole at some contents. -/
abbrev anyAt (c : Dev nD) (b : Ref sig .tc) : sProp 𝕄 :=
  iprop(∃ f : Buf (Elt F) ((c : Thread nD τ).loc b), ((c : Thread nD τ).loc b) ↦{fullShare} f)

/-- The class's invariant with the two scratch buffers as owned memrefs at some contents. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg2_0 ∗ anyAt c cc0_stg2_1
          ∗ (∃ d, owns (c : Thread nD τ) scK fullShare d) ∗ (∃ d, owns (c : Thread nD τ) scV fullShare d)) ∗ (∃ r, prngReg c r)) := by
  unfold Pipeline.ΦA; rw [scopedRest1_eq]; simp only [anyAt, scK, scV, owns_whole]; try rfl

/-- Before the first point: the class's invariant (the scratch at anything). After point n: the two scratch buffers
    at the projections of n's batch element; the other scoped buffers at anything; the generator register at some state. -/
def attnInv (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg2_0 ∗ anyAt c cc0_stg2_1
      ∗ owns (c : Thread nD τ) scK fullShare (kscr V c n hn) ∗ owns (c : Thread nD τ) scV fullShare (vscr V c n hn)) ∗ (∃ r, prngReg c r))

theorem attnInv_zero (c : Dev nD) (n : ℕ) (h : n ≤ cfg1.N) (hz : n = 0) : attnInv V c n h = Pipeline.ΦA spec1 c := by
  subst hz; rfl
theorem attnInv_succ (c : Dev nD) (n : ℕ) (hn : n < cfg1.N) :
    attnInv V c (n + 1) hn = iprop(iprop(anyAt c cc0_stg0_0 ∗ anyAt c cc0_stg0_1 ∗ anyAt c cc0_stg1_0 ∗ anyAt c cc0_stg2_0 ∗ anyAt c cc0_stg2_1
      ∗ owns (c : Thread nD τ) scK fullShare (kscr V c n hn) ∗ owns (c : Thread nD τ) scV fullShare (vscr V c n hn)) ∗ (∃ r, prngReg c r)) := rfl
theorem attnInv_pos (c : Dev nD) (n : ℕ) (h : n ≤ cfg1.N) (hz : n ≠ 0) :
    attnInv V c n h = iprop(iprop(anyAt c cc0_stg0_0 ∗ anyAt c cc0_stg0_1 ∗ anyAt c cc0_stg1_0 ∗ anyAt c cc0_stg2_0 ∗ anyAt c cc0_stg2_1
      ∗ owns (c : Thread nD τ) scK fullShare (kscr V c (n - 1) (by omega)) ∗ owns (c : Thread nD τ) scV fullShare (vscr V c (n - 1) (by omega))) ∗ (∃ r, prngReg c r)) := by
  cases n with
  | zero => exact absurd rfl hz
  | succ n => rfl

/-! ## The region's proof data -/

/-- After the body at point t each input's buffer holds its block and the output's the tile's attention output over
    the scratch contents after t; the invariant as above; nothing owed; full shares. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => ablk V c 3 t
    | ⟨4, _⟩ => ablk V c 4 t
    | ⟨5, _⟩ => aout (ablk V c 0 t) (kscr V c t.val t.isLt) (vscr V c t.val t.isLt) (ablk V c 4 t)
  Φ t := attnInv V c t.val (Nat.le_of_lt_succ t.isLt)
  q _ := fullShare
  owed _ := 0

theorem aA_eq (c : Dev nD) (w : Fin cfg1.W) : (adat V c).A w = V c (Pipeline.arrRef spec1 w) := by
  dsimp only [adat]

theorem attnInv_castSucc (c : Dev nD) (t : Fin cfg1.N) :
    (adat V c).Φ t.castSucc = attnInv V c t.val (Nat.le_of_lt t.isLt) := by
  dsimp only [adat]; simp only [Fin.coe_castSucc]

theorem aafter_0 (c : Dev nD) (t : Fin cfg1.N) : (adat V c).after 0 t = ablk V c 0 t := by dsimp only [adat]
theorem aafter_1 (c : Dev nD) (t : Fin cfg1.N) : (adat V c).after 1 t = ablk V c 1 t := by dsimp only [adat]
theorem aafter_2 (c : Dev nD) (t : Fin cfg1.N) : (adat V c).after 2 t = ablk V c 2 t := by dsimp only [adat]
theorem aafter_3 (c : Dev nD) (t : Fin cfg1.N) : (adat V c).after 3 t = ablk V c 3 t := by dsimp only [adat]
theorem aafter_4 (c : Dev nD) (t : Fin cfg1.N) : (adat V c).after 4 t = ablk V c 4 t := by dsimp only [adat]
theorem aafter_5 (c : Dev nD) (t : Fin cfg1.N) :
    (adat V c).after 5 t = aout (ablk V c 0 t) (kscr V c t.val t.isLt) (vscr V c t.val t.isLt) (ablk V c 4 t) := by dsimp only [adat]

theorem abefore_0 (c : Dev nD) (t : Fin cfg1.N) (d) : (adat V c).before 0 t d = ablk V c 0 t :=
  abefore_0_of V (adat V c) (aA_eq V c 0) (aafter_0 V c) t d
theorem abefore_1 (c : Dev nD) (t : Fin cfg1.N) (d) : (adat V c).before 1 t d = ablk V c 1 t :=
  abefore_1_of V (adat V c) (aA_eq V c 1) (aafter_1 V c) t d
theorem abefore_2 (c : Dev nD) (t : Fin cfg1.N) (d) : (adat V c).before 2 t d = ablk V c 2 t :=
  abefore_2_of V (adat V c) (aA_eq V c 2) (aafter_2 V c) t d
theorem abefore_3 (c : Dev nD) (t : Fin cfg1.N) (d) : (adat V c).before 3 t d = ablk V c 3 t :=
  abefore_3_of V (adat V c) (aA_eq V c 3) (aafter_3 V c) t d
theorem abefore_4 (c : Dev nD) (t : Fin cfg1.N) (d) : (adat V c).before 4 t d = ablk V c 4 t :=
  abefore_4_of V (adat V c) (aA_eq V c 4) (aafter_4 V c) t d

/-! ## The body obligation -/

def abodyPre (c : Dev nD) (t : Fin cfg1.N) : sProp 𝕄 :=
  iprop((adat V c).Φ t.castSucc ∗ (adat V c).owesAt () t.castSucc
    ∗ (∃ d, owns (c : Thread nD τ) (st1_0 t) fullShare ((adat V c).before 0 t d))
    ∗ (∃ d, owns (c : Thread nD τ) (st1_1 t) fullShare ((adat V c).before 1 t d))
    ∗ (∃ d, owns (c : Thread nD τ) (st1_2 t) fullShare ((adat V c).before 2 t d))
    ∗ (∃ d, owns (c : Thread nD τ) (st1_3 t) fullShare ((adat V c).before 3 t d))
    ∗ (∃ d, owns (c : Thread nD τ) (st1_4 t) fullShare ((adat V c).before 4 t d))
    ∗ (∃ d, owns (c : Thread nD τ) (st1_5 t) fullShare ((adat V c).before 5 t d)))

def abodyPost (c : Dev nD) (t : Fin cfg1.N) : sProp 𝕄 :=
  iprop((adat V c).Φ t.succ ∗ (adat V c).owesAt () t.succ
    ∗ owns (c : Thread nD τ) (st1_0 t) fullShare ((adat V c).after 0 t)
    ∗ owns (c : Thread nD τ) (st1_1 t) fullShare ((adat V c).after 1 t)
    ∗ owns (c : Thread nD τ) (st1_2 t) fullShare ((adat V c).after 2 t)
    ∗ owns (c : Thread nD τ) (st1_3 t) fullShare ((adat V c).after 3 t)
    ∗ owns (c : Thread nD τ) (st1_4 t) fullShare ((adat V c).after 4 t)
    ∗ owns (c : Thread nD τ) (st1_5 t) fullShare ((adat V c).after 5 t))

set_option maxHeartbeats 4000000 in
/-- The body at any point. The inputs' buffers hold their blocks. At a batch element's first tile the invariant hands
    over the scratch at anything (the launch's, or the previous batch element's projections, forgotten) and takes it
    back at this batch element's projections; at a later tile it hands over the projections the tile before left,
    which are this tile's, and takes them back unchanged. -/
theorem a_sound_body (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore_0, abefore_1, abefore_2, abefore_3, abefore_4]
  rw [show (adat V c).owesAt () t.succ = (adat V c).owesAt () t.castSucc from rfl]
  rw [show (adat V c).Φ t.succ = attnInv V c (t.val + 1) t.isLt from rfl, attnInv_succ]
  rw [aafter_0, aafter_1, aafter_2, aafter_3, aafter_4, aafter_5]
  have hN : t.val < 32 := lt_of_lt_of_eq t.isLt (show cfg1.N = 32 from N_1)
  by_cases h0 : t.val % 8 = 0
  · rw [kscr_first V c t h0, vscr_first V c t h0]
    by_cases hz : t.val = 0
    · rw [attnInv_castSucc V c t, attnInv_zero V c _ _ hz, PhiA1_eq]
      iintro ⟨⟨⟨HA1, HA2, HA3, HA4, HA5, HS0, HS1⟩, Hg⟩, Ho, ⟨%d0, H0⟩, ⟨%d1, H1⟩, ⟨%d2, H2⟩, ⟨%d3, H3⟩, ⟨%d4, H4⟩, ⟨%d5, H5⟩⟩
      iapply (a_first c Set.univ (grid1.coords t) ((tileZero_iff t).mpr h0) _ _ _ _ _ _ _ _ _ _ _ _ _ _ _ _
        (ablk V c 0 t) (ablk V c 1 t) (ablk V c 2 t) (ablk V c 3 t) (ablk V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HA1 HA2 HA3 HA4 HA5 HS0 HS1 Hg]
      · isplitr [Hg]
        · isplitl [HA1]; · iexact HA1
          isplitl [HA2]; · iexact HA2
          isplitl [HA3]; · iexact HA3
          isplitl [HA4]; · iexact HA4
          isplitl [HA5]; · iexact HA5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [attnInv_castSucc V c t, attnInv_pos V c _ _ hz]
      iintro ⟨⟨⟨HA1, HA2, HA3, HA4, HA5, HS0, HS1⟩, Hg⟩, Ho, ⟨%d0, H0⟩, ⟨%d1, H1⟩, ⟨%d2, H2⟩, ⟨%d3, H3⟩, ⟨%d4, H4⟩, ⟨%d5, H5⟩⟩
      iapply (a_first c Set.univ (grid1.coords t) ((tileZero_iff t).mpr h0) _ _ _ _ _ _ _ _ _ _ _ _ _ _ _ _
        (ablk V c 0 t) (ablk V c 1 t) (ablk V c 2 t) (ablk V c 3 t) (ablk V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, H5, HS0, HS1⟩
      isplitl [HA1 HA2 HA3 HA4 HA5 HS0 HS1 Hg]
      · isplitr [Hg]
        · isplitl [HA1]; · iexact HA1
          isplitl [HA2]; · iexact HA2
          isplitl [HA3]; · iexact HA3
          isplitl [HA4]; · iexact HA4
          isplitl [HA5]; · iexact HA5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [attnInv_castSucc V c t, attnInv_pos V c _ _ hz, kscr_step V c t h0, vscr_step V c t h0]
    iintro ⟨⟨⟨HA1, HA2, HA3, HA4, HA5, HS0, HS1⟩, Hg⟩, Ho, ⟨%d0, H0⟩, ⟨%d1, H1⟩, ⟨%d2, H2⟩, ⟨%d3, H3⟩, ⟨%d4, H4⟩, ⟨%d5, H5⟩⟩
    iapply (a_later c Set.univ (grid1.coords t) (fun h => h0 ((tileZero_iff t).mp h)) _ _ _ _ _ _ _ _ _ _ _ _ _ _ _ _
      (ablk V c 0 t) (ablk V c 4 t) (kscr V c t.val t.isLt) (vscr V c t.val t.isLt) _)
    isplitl [H0]; · iexact H0
    isplitl [H4]; · iexact H4
    isplitl [H5]; · iexists _; iexact H5
    isplitl [HS0]; · iexact HS0
    isplitl [HS1]; · iexact HS1
    iintro ⟨H0, H4, H5, HS0, HS1⟩
    isplitl [HA1 HA2 HA3 HA4 HA5 HS0 HS1 Hg]
    · isplitr [Hg]
      · isplitl [HA1]; · iexact HA1
        isplitl [HA2]; · iexact HA2
        isplitl [HA3]; · iexact HA3
        isplitl [HA4]; · iexact HA4
        isplitl [HA5]; · iexact HA5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem a_body_obligation (c : Dev nD) : BodyObligation (adat (F := F) V c) (defs₀ (F := F)) Variants.none () Set.univ := fun t => by
  rw [bigSep_W1, bigSep_W1]
  exact a_sound_body V c t

/-- What the launch hands the region is the invariant before the first point. -/
theorem a_hin (c : Dev nD) : Pipeline.ΦA spec1 c ⊢ (adat V c).Φ 0 := by
  rw [show (adat V c).Φ 0 = attnInv V c 0 (Nat.zero_le _) from rfl, attnInv_zero V c 0 _ rfl]
  try exact Idealize.SL.BI.Entails.refl _

/-- After the last point the invariant gives the class's back: what the scratch holds is forgotten. -/
theorem a_hout (c : Dev nD) : (adat V c).Φ (Fin.last cfg1.N) ⊢ Pipeline.ΦA spec1 c := by
  rw [show (adat V c).Φ (Fin.last cfg1.N) = attnInv V c (Fin.last cfg1.N).val (Nat.le_of_lt_succ (Fin.last cfg1.N).isLt) from rfl,
    attnInv_pos V c _ _ (by rw [Fin.val_last]; have : cfg1.N = 32 := N_1; omega), PhiA1_eq]
  iintro ⟨⟨HA1, HA2, HA3, HA4, HA5, HS0, HS1⟩, Hg⟩
  isplitr [Hg]
  · isplitl [HA1]; · iexact HA1
    isplitl [HA2]; · iexact HA2
    isplitl [HA3]; · iexact HA3
    isplitl [HA4]; · iexact HA4
    isplitl [HA5]; · iexact HA5
    isplitl [HS0]; · iexists _; iexact HS0
    iexists _; iexact HS1
  iexact Hg

end Cert.KernelIdeal.Hand

end
-- ==== Proof.KIRun.lean ====
/-
  The whole program as four segments: the host reshape of the target, the query-projection region, the host
  reshape of the projected queries, the attention region. Between segments every unscoped buffer of the core is
  held whole at a named valuation: the launch memory, then each host stretch applied, then each region's arrays at
  what its write-backs leave. The run reads the last valuation back off the final state: the result array at what
  the attention region's write-backs leave, and every argument array, which no segment writes, at its launch contents.
-/
import proofs.«155551_j8581344657576_2_alg».proof.Proof.KIRegionQ
import proofs.«155551_j8581344657576_2_alg».proof.Proof.KIRegionA
import proofs.«155551_j8581344657576_2_alg».proof.Proof.Gen.KernelIdeal.Regions
import Idealize.ShloMosaic.Adequacy
import Idealize.ShloMosaic.Init

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the query-projection region: its arrays at what the pipeline leaves, every other buffer as entered. -/
def W2 (c : Dev nD) : Valuation τ sig (Elt F) :=
  Pipeline.withArrays spec0 c (W1 m ρ c) fun w => (qdat (V1 m ρ) c).arrAt w cfg0.N
theorem W2_arr (c : Dev nD) (w : Fin cfg0.W) :
    W2 m ρ c (Proc.devRef .tc (Pipeline.arrRef spec0 w)) = (qdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (qdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its arrays at what the pipeline leaves, every other buffer as entered. -/
def W4 (c : Dev nD) : Valuation τ sig (Elt F) :=
  Pipeline.withArrays spec1 c (W3 m ρ c) fun w => (adat (V3 m ρ) c).arrAt w cfg1.N
theorem W4_arr (c : Dev nD) (w : Fin cfg1.W) :
    W4 m ρ c (Proc.devRef .tc (Pipeline.arrRef spec1 w)) = (adat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (adat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, and a region reads it through an input window or not at all -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((adat (V3 m ρ) c).arrAt_in 1 rfl _).trans (aA_eq (V3 m ρ) c 1))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 1).trans (((qdat (V1 m ρ) c).arrAt_in 1 rfl _).trans (qA_eq (V1 m ρ) c 1))
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 2).trans (((adat (V3 m ρ) c).arrAt_in 2 rfl _).trans (aA_eq (V3 m ρ) c 2))
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 3).trans (((adat (V3 m ρ) c).arrAt_in 3 rfl _).trans (aA_eq (V3 m ρ) c 3))
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 4).trans (((adat (V3 m ρ) c).arrAt_in 4 rfl _).trans (aA_eq (V3 m ρ) c 4))
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- The result array ends at what the attention region's write-backs leave in it. -/
theorem W4_main_v3 (c : Dev nD) : W4 m ρ c (Proc.devRef .tc main_v3) = (adat (V3 m ρ) c).arrAt 5 cfg1.N :=
  W4_arr m ρ c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => qdat (V1 m ρ) c
  | ⟨1, _⟩ => fun c => adat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

/-- The generator register and the scoped rest make the class's invariant (the tables: there are none). -/
theorem a_in_class (c : Dev nD) :
    (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) (Pipeline.pin (pcfgs (F := F)) adm 1).spec c) : sProp 𝕄)
      ⊢ Pipeline.ΦA spec1 c := by
  unfold Pipeline.ΦA
  iintro ⟨Hp, -, Hr⟩
  isplitl [Hr]; · iexact Hr
  iexact Hp
/-- And the class's invariant gives them back. -/
theorem a_class_out (c : Dev nD) :
    (Pipeline.ΦA spec1 c : sProp 𝕄)
      ⊢ iprop((∃ r, prngReg c r) ∗ BI.emp
        ∗ Pipeline.scopedRest (Ix := Unit) (Name := ℕ) (U := UR sig nD τ) (Lvl := ℕ) (Val := Elt F) (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- The query-projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (q_body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4. The invariant
    takes the scoped rest (the scratch at anything) in at the first point and gives it back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (a_body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (a_in_class c).trans (a_hin (V3 m ρ) c)
  hout c := by
    rw [Pipeline.ownSems0_none]
    exact (a_hout (V3 m ρ) c).trans (a_class_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final state holds the result array at what the attention region's write-backs leave and every argument
    array at its launch contents. -/
theorem run_all : θ_run defs (onTc (τ := τ) (main (F := F))) ⟨m, fun _ => 0, ρ⟩ (fun r => ∀ c : Dev nD,
      r.2.mem ((c.tc : Thread nD τ).loc main_v3) = (adat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_main_v3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.KernelIdeal.Hand

end
-- ==== Proof.AttnSpec.lean ====
/-
  Low-rank cross-attention as one function of the six argument arrays, index by index.

  With B = 4 batches, T = S = 2048 positions, model width D = 1024 and rank r = 128:
    q[b,t,r]  = Σ_d tgt[b,t,d] · Wq[r,d]          k[b,s,r] = Σ_d mem[b,s,d] · Wk[r,d]
    v[b,s,e]  = Σ_d mem[b,s,d] · Wv[e,d]
    sc[b,t,s] = (Σ_r q[b,t,r] · k[b,s,r]) · c      (c one fixed f32 word, never evaluated)
    m[b,t]    = the maximum over s of sc[b,t,s], folded from the word for −∞
    p[b,t,s]  = exp (sc[b,t,s] − m[b,t]),   l[b,t] = Σ_s p[b,t,s],   a[b,t,s] = p[b,t,s] / l[b,t]
    out[b,t,o] = Σ_e (Σ_s a[b,t,s] · v[b,s,e]) · Wo[o,e]
  The softmax part is phrased over ONE ROW of scores (a function of the key position) and a value
  matrix, so that the same definitions describe a block of query rows and the whole array.
  All arithmetic is that of the extended reals; sums and the maximum are over literal finite types.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## One row of scores -/

/-- The scale every score is multiplied by: the extended real one fixed f32 word denotes. -/
def scale : EReal := Ideal.ofBits .f32 0x3DB504F3#32

/-- The value the row maximum is folded from: what the f32 word of −∞ denotes. -/
def floorVal : EReal := Ideal.ofBits .f32 0xFF800000#32

/-- The maximum of a row of scores, as the fold of `max` over the key positions from `floorVal`. -/
def rowMax (sc : Fin 2048 → EReal) : EReal :=
  (Finset.univ : Finset (Fin 2048)).fold max floorVal sc

/-- The unnormalised weight of key position `s`: `exp (sc s − rowMax sc)`. -/
def expRow (sc : Fin 2048 → EReal) (s : Fin 2048) : EReal := Ideal.exp (sc s - rowMax sc)

/-- The normaliser of a row: the sum of its unnormalised weights. -/
def rowSum (sc : Fin 2048 → EReal) : EReal := ∑ s : Fin 2048, expRow sc s

/-- The softmax weight of key position `s` in a row of scores (an exact division). -/
def weight (sc : Fin 2048 → EReal) (s : Fin 2048) : EReal := Ideal.div (expRow sc s) (rowSum sc)

/-- The row's weights applied to a value matrix: coordinate `e` of the attended value. -/
def attnOut (sc : Fin 2048 → EReal) (v : Fin 2048 → Fin 1024 → EReal) (e : Fin 1024) : EReal :=
  ∑ s : Fin 2048, weight sc s * v s e

/-- The output projection of an attended value `a` by the matrix `Wo`, at output coordinate `o`. -/
def outProj (a : Fin 1024 → EReal) (Wo : (⟨2, ![1024, 1024]⟩ : Shape).Idx → EReal) (o : Fin 1024) : EReal :=
  ∑ e : Fin 1024, a e * Wo (ix2 o e)

/-- The row of scores of a query vector `q` against the keys `k`: the dot products, scaled. -/
def score (q : Fin 128 → EReal) (k : Fin 2048 → Fin 128 → EReal) (s : Fin 2048) : EReal :=
  (∑ r : Fin 128, q r * k s r) * scale

/-- The maximum folded from `floorVal` is at least `floorVal`, so taking the maximum with it again
    changes nothing. -/
theorem max_floor_rowMax (sc : Fin 2048 → EReal) : max floorVal (rowMax sc) = rowMax sc :=
  max_eq_right ((Finset.le_fold_max _).mpr (Or.inl le_rfl))

/-! ## The projections -/

/-- The query projection `q[b,t,r] = Σ_d tgt[b,t,d] · Wq[r,d]`. -/
def qP (tgt : (⟨3, ![4, 2048, 1024]⟩ : Shape).Idx → EReal) (Wq : (⟨2, ![128, 1024]⟩ : Shape).Idx → EReal)
    (b : Fin 4) (t : Fin 2048) (r : Fin 128) : EReal :=
  ∑ d : Fin 1024, tgt (ix3 b t d) * Wq (ix2 r d)

/-- The key projection `k[b,s,r] = Σ_d mem[b,s,d] · Wk[r,d]`. -/
def kP (mem : (⟨3, ![4, 2048, 1024]⟩ : Shape).Idx → EReal) (Wk : (⟨2, ![128, 1024]⟩ : Shape).Idx → EReal)
    (b : Fin 4) (s : Fin 2048) (r : Fin 128) : EReal :=
  ∑ d : Fin 1024, mem (ix3 b s d) * Wk (ix2 r d)

/-- The value projection `v[b,s,e] = Σ_d mem[b,s,d] · Wv[e,d]`. -/
def vP (mem : (⟨3, ![4, 2048, 1024]⟩ : Shape).Idx → EReal) (Wv : (⟨2, ![1024, 1024]⟩ : Shape).Idx → EReal)
    (b : Fin 4) (s : Fin 2048) (e : Fin 1024) : EReal :=
  ∑ d : Fin 1024, mem (ix3 b s d) * Wv (ix2 e d)

/-! ## The whole result -/

/-- The result at batch `b`, query position `t`, output coordinate `o`. -/
def Gat (tgt mem : (⟨3, ![4, 2048, 1024]⟩ : Shape).Idx → EReal) (Wq Wk : (⟨2, ![128, 1024]⟩ : Shape).Idx → EReal)
    (Wv Wo : (⟨2, ![1024, 1024]⟩ : Shape).Idx → EReal) (b : Fin 4) (t : Fin 2048) (o : Fin 1024) : EReal :=
  outProj (attnOut (score (qP tgt Wq b t) (kP mem Wk b)) (vP mem Wv b)) Wo o

/-- The result array: `Gat` at the index's three coordinates. -/
def G (tgt mem : (⟨3, ![4, 2048, 1024]⟩ : Shape).Idx → EReal) (Wq Wk : (⟨2, ![128, 1024]⟩ : Shape).Idx → EReal)
    (Wv Wo : (⟨2, ![1024, 1024]⟩ : Shape).Idx → EReal) : (⟨3, ![4, 2048, 1024]⟩ : Shape).Idx → EReal :=
  fun i => Gat tgt mem Wq Wk Wv Wo (i 0) (i 1) (i 2)

/-- `G` at an index written by its coordinates. -/
theorem G_ix3 (tgt mem : (⟨3, ![4, 2048, 1024]⟩ : Shape).Idx → EReal) (Wq Wk : (⟨2, ![128, 1024]⟩ : Shape).Idx → EReal)
    (Wv Wo : (⟨2, ![1024, 1024]⟩ : Shape).Idx → EReal) (b : Fin 4) (t : Fin 2048) (o : Fin 1024) :
    G tgt mem Wq Wk Wv Wo (ix3 b t o) = Gat tgt mem Wq Wk Wv Wo b t o := rfl

end Cert.Attn

end
-- ==== Proof.AttnPayloads.lean ====
/-
  The arithmetic of the two kernel bodies read at one index, over the extended reals.

  Each body's stored value is a pure term of the values it loaded.  Read at an index, a matrix product into a
  zero accumulator is the sum of the operands' products over the contracted coordinate; a change of float
  format is the identity; a lane reduction with `add` is the sum over the lane coordinate and one with
  `maximumf` is the fold of `max` from the accumulator's value; a one-column array broadcast back over the lanes
  reads the column at the row.  So the three projection bodies are the specification's projections at a row and
  a column, and the attention body is the specification's softmax of the block's own row of scores, applied to
  the value matrix and projected by the output matrix.
-/
import proofs.«155551_j8581344657576_2_alg».proof.Proof.Gen.KernelIdeal.Skeleton
import proofs.«155551_j8581344657576_2_alg».proof.Proof.AttnSpec
import Idealize.ShloMosaic.Lib.Pipeline.Value
import Idealize.ShloMosaic.Lib.ValueLayout
import Idealize.ShloMosaic.PureOps.Ideal.Laws

noncomputable section

open scoped BigOperators

namespace Cert.Attn

open Cert.KernelIdeal Cert.KernelIdeal.Gen Idealize.ShloMosaic Idealize.ShloMosaic.ValueIdx

/-! ## The matrix products at an index -/

theorem mm_q_l0 (i : S512x128.Idx) (q : dot_S512x1024_S128x1024_S512x128_1_1_0_0_n_n.contr.Idx) : (dot_S512x1024_S128x1024_S512x128_1_1_0_0_n_n.lhsIdx i q 0).val = (i 0).val := by
  unfold DotDims.lhsIdx
  rw [dif_neg (show ¬(0 : Fin S512x1024.rank) ∈ dot_S512x1024_S128x1024_S512x128_1_1_0_0_n_n.lhsBatch by decide), dif_pos (show (0 : Fin S512x1024.rank) ∈ dot_S512x1024_S128x1024_S512x128_1_1_0_0_n_n.lhsNonContracting by decide)]
  rfl
theorem mm_q_l1 (i : S512x128.Idx) (q : dot_S512x1024_S128x1024_S512x128_1_1_0_0_n_n.contr.Idx) : (dot_S512x1024_S128x1024_S512x128_1_1_0_0_n_n.lhsIdx i q 1).val = (q ⟨0, by decide⟩).val :=
  dot_S512x1024_S128x1024_S512x128_1_1_0_0_n_n.lhsIdx_val_of_single rfl i q
theorem mm_q_r0 (i : S512x128.Idx) (q : dot_S512x1024_S128x1024_S512x128_1_1_0_0_n_n.contr.Idx) : (dot_S512x1024_S128x1024_S512x128_1_1_0_0_n_n.rhsIdx i q 0).val = (i 1).val := by
  unfold DotDims.rhsIdx
  rw [dif_neg (show ¬(0 : Fin S128x1024.rank) ∈ dot_S512x1024_S128x1024_S512x128_1_1_0_0_n_n.rhsBatch by decide), dif_pos (show (0 : Fin S128x1024.rank) ∈ dot_S512x1024_S128x1024_S512x128_1_1_0_0_n_n.rhsNonContracting by decide)]
  rfl
theorem mm_q_r1 (i : S512x128.Idx) (q : dot_S512x1024_S128x1024_S512x128_1_1_0_0_n_n.contr.Idx) : (dot_S512x1024_S128x1024_S512x128_1_1_0_0_n_n.rhsIdx i q 1).val = (q ⟨0, by decide⟩).val :=
  dot_S512x1024_S128x1024_S512x128_1_1_0_0_n_n.rhsIdx_val_of_single rfl i q
/-- `[512,1024] · [128,1024]ᵀ` at `(p, r)`: the sum over the shared last coordinate. -/
theorem mm_q {φ₁ φ₂ : FTy} (a : FVec Ideal S512x1024 φ₁) (b : FVec Ideal S128x1024 φ₂) (p : Fin 512) (r : Fin 128) :
    FloatOps.matmul dot_S512x1024_S128x1024_S512x128_1_1_0_0_n_n none a b (constant S512x128 .f32 0x00000000#32) (ix2 p r)
      = ∑ d : Fin 1024, a (ix2 p d) * b (ix2 r d) := by
  rw [Ideal.matmul_constant_zero_apply, ← Equiv.sum_comp (contrEquiv1 dot_S512x1024_S128x1024_S512x128_1_1_0_0_n_n 1024 rfl rfl).symm]
  refine Finset.sum_congr rfl fun k _ => ?_
  have hk := contrEquiv1_symm_val dot_S512x1024_S128x1024_S512x128_1_1_0_0_n_n 1024 rfl rfl k
  have el : dot_S512x1024_S128x1024_S512x128_1_1_0_0_n_n.lhsIdx (ix2 p r) ((contrEquiv1 dot_S512x1024_S128x1024_S512x128_1_1_0_0_n_n 1024 rfl rfl).symm k) = ix2 p k := funext fun c => Fin.ext (by
    match c with
    | ⟨0, _⟩ => exact mm_q_l0 _ _
    | ⟨1, _⟩ => exact (mm_q_l1 _ _).trans hk)
  have er : dot_S512x1024_S128x1024_S512x128_1_1_0_0_n_n.rhsIdx (ix2 p r) ((contrEquiv1 dot_S512x1024_S128x1024_S512x128_1_1_0_0_n_n 1024 rfl rfl).symm k) = ix2 r k := funext fun c => Fin.ext (by
    match c with
    | ⟨0, _⟩ => exact mm_q_r0 _ _
    | ⟨1, _⟩ => exact (mm_q_r1 _ _).trans hk)
  rw [el, er]

theorem mm_k_l0 (i : S2048x128.Idx) (q : dot_S2048x1024_S128x1024_S2048x128_1_1_0_0_n_n.contr.Idx) : (dot_S2048x1024_S128x1024_S2048x128_1_1_0_0_n_n.lhsIdx i q 0).val = (i 0).val := by
  unfold DotDims.lhsIdx
  rw [dif_neg (show ¬(0 : Fin S2048x1024.rank) ∈ dot_S2048x1024_S128x1024_S2048x128_1_1_0_0_n_n.lhsBatch by decide), dif_pos (show (0 : Fin S2048x1024.rank) ∈ dot_S2048x1024_S128x1024_S2048x128_1_1_0_0_n_n.lhsNonContracting by decide)]
  rfl
theorem mm_k_l1 (i : S2048x128.Idx) (q : dot_S2048x1024_S128x1024_S2048x128_1_1_0_0_n_n.contr.Idx) : (dot_S2048x1024_S128x1024_S2048x128_1_1_0_0_n_n.lhsIdx i q 1).val = (q ⟨0, by decide⟩).val :=
  dot_S2048x1024_S128x1024_S2048x128_1_1_0_0_n_n.lhsIdx_val_of_single rfl i q
theorem mm_k_r0 (i : S2048x128.Idx) (q : dot_S2048x1024_S128x1024_S2048x128_1_1_0_0_n_n.contr.Idx) : (dot_S2048x1024_S128x1024_S2048x128_1_1_0_0_n_n.rhsIdx i q 0).val = (i 1).val := by
  unfold DotDims.rhsIdx
  rw [dif_neg (show ¬(0 : Fin S128x1024.rank) ∈ dot_S2048x1024_S128x1024_S2048x128_1_1_0_0_n_n.rhsBatch by decide), dif_pos (show (0 : Fin S128x1024.rank) ∈ dot_S2048x1024_S128x1024_S2048x128_1_1_0_0_n_n.rhsNonContracting by decide)]
  rfl
theorem mm_k_r1 (i : S2048x128.Idx) (q : dot_S2048x1024_S128x1024_S2048x128_1_1_0_0_n_n.contr.Idx) : (dot_S2048x1024_S128x1024_S2048x128_1_1_0_0_n_n.rhsIdx i q 1).val = (q ⟨0, by decide⟩).val :=
  dot_S2048x1024_S128x1024_S2048x128_1_1_0_0_n_n.rhsIdx_val_of_single rfl i q
/-- `[2048,1024] · [128,1024]ᵀ` at `(s, r)`: the sum over the shared last coordinate. -/
theorem mm_k {φ₁ φ₂ : FTy} (a : FVec Ideal S2048x1024 φ₁) (b : FVec Ideal S128x1024 φ₂) (p : Fin 2048) (r : Fin 128) :
    FloatOps.matmul dot_S2048x1024_S128x1024_S2048x128_1_1_0_0_n_n none a b (constant S2048x128 .f32 0x00000000#32) (ix2 p r)
      = ∑ d : Fin 1024, a (ix2 p d) * b (ix2 r d) := by
  rw [Ideal.matmul_constant_zero_apply, ← Equiv.sum_comp (contrEquiv1 dot_S2048x1024_S128x1024_S2048x128_1_1_0_0_n_n 1024 rfl rfl).symm]
  refine Finset.sum_congr rfl fun k _ => ?_
  have hk := contrEquiv1_symm_val dot_S2048x1024_S128x1024_S2048x128_1_1_0_0_n_n 1024 rfl rfl k
  have el : dot_S2048x1024_S128x1024_S2048x128_1_1_0_0_n_n.lhsIdx (ix2 p r) ((contrEquiv1 dot_S2048x1024_S128x1024_S2048x128_1_1_0_0_n_n 1024 rfl rfl).symm k) = ix2 p k := funext fun c => Fin.ext (by
    match c with
    | ⟨0, _⟩ => exact mm_k_l0 _ _
    | ⟨1, _⟩ => exact (mm_k_l1 _ _).trans hk)
  have er : dot_S2048x1024_S128x1024_S2048x128_1_1_0_0_n_n.rhsIdx (ix2 p r) ((contrEquiv1 dot_S2048x1024_S128x1024_S2048x128_1_1_0_0_n_n 1024 rfl rfl).symm k) = ix2 r k := funext fun c => Fin.ext (by
    match c with
    | ⟨0, _⟩ => exact mm_k_r0 _ _
    | ⟨1, _⟩ => exact (mm_k_r1 _ _).trans hk)
  rw [el, er]

theorem mm_v_l0 (i : S2048x1024.Idx) (q : dot_S2048x1024_S1024x1024_S2048x1024_1_1_0_0_n_n.contr.Idx) : (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem mm_v_l1 (i : S2048x1024.Idx) (q : dot_S2048x1024_S1024x1024_S2048x1024_1_1_0_0_n_n.contr.Idx) : (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem mm_v_r0 (i : S2048x1024.Idx) (q : dot_S2048x1024_S1024x1024_S2048x1024_1_1_0_0_n_n.contr.Idx) : (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem mm_v_r1 (i : S2048x1024.Idx) (q : dot_S2048x1024_S1024x1024_S2048x1024_1_1_0_0_n_n.contr.Idx) : (dot_S2048x1024_S1024x1024_S2048x1024_1_1_0_0_n_n.rhsIdx i q 1).val = (q ⟨0, by decide⟩).val :=
  dot_S2048x1024_S1024x1024_S2048x1024_1_1_0_0_n_n.rhsIdx_val_of_single rfl i q
/-- `[2048,1024] · [1024,1024]ᵀ` at `(s, e)`: the sum over the shared last coordinate. -/
theorem mm_v {φ₁ φ₂ : FTy} (a : FVec Ideal S2048x1024 φ₁) (b : FVec Ideal S1024x1024 φ₂) (p : Fin 2048) (r : Fin 1024) :
    FloatOps.matmul dot_S2048x1024_S1024x1024_S2048x1024_1_1_0_0_n_n none a b (constant S2048x1024 .f32 0x00000000#32) (ix2 p r)
      = ∑ d : Fin 1024, a (ix2 p d) * b (ix2 r d) := by
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p r) ((contrEquiv1 dot_S2048x1024_S1024x1024_S2048x1024_1_1_0_0_n_n 1024 rfl rfl).symm k) = ix2 p k := funext fun c => Fin.ext (by
    match c with
    | ⟨0, _⟩ => exact mm_v_l0 _ _
    | ⟨1, _⟩ => exact (mm_v_l1 _ _).trans hk)
  have er : dot_S2048x1024_S1024x1024_S2048x1024_1_1_0_0_n_n.rhsIdx (ix2 p r) ((contrEquiv1 dot_S2048x1024_S1024x1024_S2048x1024_1_1_0_0_n_n 1024 rfl rfl).symm k) = ix2 r k := funext fun c => Fin.ext (by
    match c with
    | ⟨0, _⟩ => exact mm_v_r0 _ _
    | ⟨1, _⟩ => exact (mm_v_r1 _ _).trans hk)
  rw [el, er]

theorem mm_sc_l0 (i : S256x2048.Idx) (q : dot_S256x128_S2048x128_S256x2048_1_1_0_0_n_n.contr.Idx) : (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem mm_sc_l1 (i : S256x2048.Idx) (q : dot_S256x128_S2048x128_S256x2048_1_1_0_0_n_n.contr.Idx) : (dot_S256x128_S2048x128_S256x2048_1_1_0_0_n_n.lhsIdx i q 1).val = (q ⟨0, by decide⟩).val :=
  dot_S256x128_S2048x128_S256x2048_1_1_0_0_n_n.lhsIdx_val_of_single rfl i q
theorem mm_sc_r0 (i : S256x2048.Idx) (q : dot_S256x128_S2048x128_S256x2048_1_1_0_0_n_n.contr.Idx) : (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem mm_sc_r1 (i : S256x2048.Idx) (q : dot_S256x128_S2048x128_S256x2048_1_1_0_0_n_n.contr.Idx) : (dot_S256x128_S2048x128_S256x2048_1_1_0_0_n_n.rhsIdx i q 1).val = (q ⟨0, by decide⟩).val :=
  dot_S256x128_S2048x128_S256x2048_1_1_0_0_n_n.rhsIdx_val_of_single rfl i q
/-- `[256,128] · [2048,128]ᵀ` at `(p, s)`: the sum over the shared rank coordinate. -/
theorem mm_sc {φ₁ φ₂ : FTy} (a : FVec Ideal S256x128 φ₁) (b : FVec Ideal S2048x128 φ₂) (p : Fin 256) (r : Fin 2048) :
    FloatOps.matmul dot_S256x128_S2048x128_S256x2048_1_1_0_0_n_n none a b (constant S256x2048 .f32 0x00000000#32) (ix2 p r)
      = ∑ d : Fin 128, a (ix2 p d) * b (ix2 r d) := by
  rw [Ideal.matmul_constant_zero_apply, ← Equiv.sum_comp (contrEquiv1 dot_S256x128_S2048x128_S256x2048_1_1_0_0_n_n 128 rfl rfl).symm]
  refine Finset.sum_congr rfl fun k _ => ?_
  have hk := contrEquiv1_symm_val dot_S256x128_S2048x128_S256x2048_1_1_0_0_n_n 128 rfl rfl k
  have el : dot_S256x128_S2048x128_S256x2048_1_1_0_0_n_n.lhsIdx (ix2 p r) ((contrEquiv1 dot_S256x128_S2048x128_S256x2048_1_1_0_0_n_n 128 rfl rfl).symm k) = ix2 p k := funext fun c => Fin.ext (by
    match c with
    | ⟨0, _⟩ => exact mm_sc_l0 _ _
    | ⟨1, _⟩ => exact (mm_sc_l1 _ _).trans hk)
  have er : dot_S256x128_S2048x128_S256x2048_1_1_0_0_n_n.rhsIdx (ix2 p r) ((contrEquiv1 dot_S256x128_S2048x128_S256x2048_1_1_0_0_n_n 128 rfl rfl).symm k) = ix2 r k := funext fun c => Fin.ext (by
    match c with
    | ⟨0, _⟩ => exact mm_sc_r0 _ _
    | ⟨1, _⟩ => exact (mm_sc_r1 _ _).trans hk)
  rw [el, er]

theorem mm_av_l0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem mm_av_l1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem mm_av_r1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
theorem mm_av_r0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
/-- `[256,2048] · [2048,1024]` at `(p, e)`: the sum over the key position. -/
theorem mm_av {φ₁ φ₂ : FTy} (a : FVec Ideal S256x2048 φ₁) (b : FVec Ideal S2048x1024 φ₂) (p : Fin 256) (r : Fin 1024) :
    FloatOps.matmul dot_S256x2048_S2048x1024_S256x1024_1_0_0_1_n_n none a b (constant S256x1024 .f32 0x00000000#32) (ix2 p r)
      = ∑ d : Fin 2048, a (ix2 p d) * b (ix2 d r) := by
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p r) ((contrEquiv1 dot_S256x2048_S2048x1024_S256x1024_1_0_0_1_n_n 2048 rfl rfl).symm k) = ix2 p k := funext fun c => Fin.ext (by
    match c with
    | ⟨0, _⟩ => exact mm_av_l0 _ _
    | ⟨1, _⟩ => exact (mm_av_l1 _ _).trans hk)
  have er : dot_S256x2048_S2048x1024_S256x1024_1_0_0_1_n_n.rhsIdx (ix2 p r) ((contrEquiv1 dot_S256x2048_S2048x1024_S256x1024_1_0_0_1_n_n 2048 rfl rfl).symm k) = ix2 k r := funext fun c => Fin.ext (by
    match c with
    | ⟨1, _⟩ => exact mm_av_r1 _ _
    | ⟨0, _⟩ => exact (mm_av_r0 _ _).trans hk)
  rw [el, er]

theorem mm_o_l0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem mm_o_l1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem mm_o_r0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem mm_o_r1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q
/-- `[256,1024] · [1024,1024]ᵀ` at `(p, o)`: the sum over the shared last coordinate. -/
theorem mm_o {φ₁ φ₂ : FTy} (a : FVec Ideal S256x1024 φ₁) (b : FVec Ideal S1024x1024 φ₂) (p : Fin 256) (r : Fin 1024) :
    FloatOps.matmul dot_S256x1024_S1024x1024_S256x1024_1_1_0_0_n_n none a b (constant S256x1024 .f32 0x00000000#32) (ix2 p r)
      = ∑ d : Fin 1024, a (ix2 p d) * b (ix2 r d) := by
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p r) ((contrEquiv1 dot_S256x1024_S1024x1024_S256x1024_1_1_0_0_n_n 1024 rfl rfl).symm k) = ix2 p k := funext fun c => Fin.ext (by
    match c with
    | ⟨0, _⟩ => exact mm_o_l0 _ _
    | ⟨1, _⟩ => exact (mm_o_l1 _ _).trans hk)
  have er : dot_S256x1024_S1024x1024_S256x1024_1_1_0_0_n_n.rhsIdx (ix2 p r) ((contrEquiv1 dot_S256x1024_S1024x1024_S256x1024_1_1_0_0_n_n 1024 rfl rfl).symm k) = ix2 r k := funext fun c => Fin.ext (by
    match c with
    | ⟨0, _⟩ => exact mm_o_r0 _ _
    | ⟨1, _⟩ => exact (mm_o_r1 _ _).trans hk)
  rw [el, er]

/-! ## The projection bodies -/

/-- The query-projection body at row `p` and rank coordinate `r`. -/
theorem k0_pay1_apply (x0 : Vec Ideal S512x1024 .f32) (w : Vec Ideal S128x1024 .f32) (p : Fin 512) (r : Fin 128) :
    k0_pay1 (F := Ideal) x0 w (ix2 p r) = ∑ d : Fin 1024, x0 (ix2 p d) * w (ix2 r d) := by
  unfold k0_pay1
  refine (mm_q _ _ p r).trans ?_
  rw [shapeCast_self]
  rfl

/-- The memory block with its unit batch axis dropped, at `(s, d)`. -/
theorem k1_pay1_apply (v28 : Vec Ideal S1x2048x1024 .f32) (s : Fin 2048) (d : Fin 1024) :
    k1_pay1 (F := Ideal) v28 (ix2 s d) = v28 (ix3 (0 : Fin 1) s d) := by
  unfold k1_pay1
  exact shapeCast_1ab_ab_apply v28 _ s d

/-- The key-projection body at key position `s` and rank coordinate `r`. -/
theorem k1_pay2_apply (v28 : Vec Ideal S1x2048x1024 .f32) (v31 : Vec Ideal S128x1024 .f32) (s : Fin 2048) (r : Fin 128) :
    k1_pay2 (F := Ideal) v28 v31 (ix2 s r) = ∑ d : Fin 1024, v28 (ix3 (0 : Fin 1) s d) * v31 (ix2 r d) := by
  unfold k1_pay2
  rw [shapeCast_self]
  refine (mm_k _ _ s r).trans ?_
  refine Finset.sum_congr rfl fun d _ => ?_
  rw [k1_pay1_apply]
  rfl

/-- The value-projection body at key position `s` and value coordinate `e`. -/
theorem k1_pay3_apply (v28 : Vec Ideal S1x2048x1024 .f32) (v33 : Vec Ideal S1024x1024 .f32) (s : Fin 2048) (e : Fin 1024) :
    k1_pay3 (F := Ideal) v28 v33 (ix2 s e) = ∑ d : Fin 1024, v28 (ix3 (0 : Fin 1) s d) * v33 (ix2 e d) := by
  unfold k1_pay3
  rw [shapeCast_self]
  refine (mm_v _ _ s e).trans ?_
  refine Finset.sum_congr rfl fun d _ => ?_
  rw [k1_pay1_apply]
  rfl

/-! ## The one-column forms and the lane reductions -/

/-- A `[256]` vector cast to a `[256,1]` column reads, at `(p, u)`, the vector at `p`. -/
theorem col_cast_apply {α : Type} (x : S256.Idx → α) (h : S256.ShapeCasts S256x1) (p : Fin 256) (u : Fin 1) :
    shapeCast S256x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A `[256,1]` column broadcast over `[256,2048]` reads, at `(p, s)`, the column at row `p`. -/
theorem col_bcast_apply {α : Type} (c : S256x1.Idx → α) (h : S256x1.Broadcasts S256x2048) (p : Fin 256) (s : Fin 2048) :
    broadcastTo S256x2048 c h (ix2 p s) = c (ix2 p (0 : Fin 1)) := by
  refine broadcastTo_apply c h (ix2 p s) (ix2 p (0 : Fin 1)) fun ax => ?_
  match ax with
  | ⟨0, _⟩ => show p.val = if (256 : Nat) = 1 then 0 else p.val; rw [if_neg (by decide)]
  | ⟨1, _⟩ => show 0 = if (1 : Nat) = 1 then 0 else s.val; rw [if_pos rfl]

/-- Row `p` of a `[256,2048]` block with the lane coordinate `k` inserted is the index `(p, k)`. -/
theorem lift_row (p : Fin 256) (k : Fin 2048) : reduces_S256x2048_S256.lift (ix1 p) k = ix2 p k :=
  funext fun c => Fin.ext (by match c with | ⟨0, _⟩ => rfl | ⟨1, _⟩ => rfl)

/-- The lane maximum of a block at row `p` is the specification's maximum of that row. -/
theorem rowmax_apply (v9 : FVec Ideal S256x2048 .f32) (p : Fin 256) :
    multiReduction (F := Ideal) .maximumf [1] S256 v9 0xFF800000#32 reduces_S256x2048_S256 (.inl rfl) rfl (ix1 p)
      = rowMax (fun s => v9 (ix2 p s)) := by
  refine (Ideal.multiReduction_maximumf_single v9 0xFF800000#32 reduces_S256x2048_S256 (.inl rfl) rfl (ix1 p)).trans ?_
  unfold rowMax floorVal
  exact congrArg (fun f : Fin 2048 → EReal => (Finset.univ : Finset (Fin 2048)).fold max (Ideal.ofBits .f32 0xFF800000#32) f)
    (funext fun k => congrArg v9 (lift_row p k))

/-- The lane sum of a block at row `p` is the sum over the row. -/
theorem rowsum_apply (v14 : FVec Ideal S256x2048 .f32) (p : Fin 256) :
    multiReduction (F := Ideal) .add [1] S256 v14 0x00000000#32 reduces_S256x2048_S256 (.inl rfl) rfl (ix1 p)
      = ∑ s : Fin 2048, v14 (ix2 p s) := by
  refine (Ideal.multiReduction_add_single v14 0x00000000#32 reduces_S256x2048_S256 (.inl rfl) rfl (ix1 p)).trans ?_
  exact Finset.sum_congr rfl fun k _ => congrArg v14 (lift_row p k)

/-! ## The attention body, stage by stage -/

/-- The block's scores: the query block against the keys, scaled. -/
def scoreV (v3 : FVec Ideal S1x256x128 .bf16) (v5 : FVec Ideal S2048x128 .bf16) : FVec Ideal S256x2048 .f32 :=
  mulf (matmul dot_S256x128_S2048x128_S256x2048_1_1_0_0_n_n none (shapeCast S256x128 v3 shapeCasts_S1x256x128_S256x128) v5
    (constant S256x2048 .f32 0x00000000#32)) (broadcast S256x2048 (Scalar.ofBits .f32 0x3DB504F3#32))

/-- Each row's maximum, spread back over the row. -/
def maxV (v9 : FVec Ideal S256x2048 .f32) : FVec Ideal S256x2048 .f32 :=
  broadcastTo S256x2048 (shapeCast S256x1 (multiReduction (F := Ideal) .maximumf [1] S256 v9 0xFF800000#32 reduces_S256x2048_S256 (.inl rfl) rfl)
    shapeCasts_S256_S256x1) broadcasts_S256x1_S256x2048

/-- The exponentials of the scores less their row's maximum. -/
def expV (v9 : FVec Ideal S256x2048 .f32) : FVec Ideal S256x2048 .f32 := exp (subf v9 (maxV v9))

/-- Each row's sum, spread back over the row. -/
def sumV (v14 : FVec Ideal S256x2048 .f32) : FVec Ideal S256x2048 .f32 :=
  broadcastTo S256x2048 (shapeCast S256x1 (multiReduction (F := Ideal) .add [1] S256 v14 0x00000000#32 reduces_S256x2048_S256 (.inl rfl) rfl)
    shapeCasts_S256_S256x1) broadcasts_S256x1_S256x2048

/-- The softmax weights of the block. -/
def softV (v9 : FVec Ideal S256x2048 .f32) : FVec Ideal S256x2048 .f32 := divf (expV v9) (sumV (expV v9))

theorem scoreV_apply (v3 : FVec Ideal S1x256x128 .bf16) (v5 : FVec Ideal S2048x128 .bf16) (p : Fin 256) (s : Fin 2048) :
    scoreV v3 v5 (ix2 p s) = (∑ r : Fin 128, v3 (ix3 (0 : Fin 1) p r) * v5 (ix2 s r)) * scale := by
  unfold scoreV scale
  refine congrArg₂ (· * ·) ((mm_sc _ _ p s).trans ?_) rfl
  refine Finset.sum_congr rfl fun r _ => ?_
  rw [shapeCast_1ab_ab_apply]

theorem maxV_apply (v9 : FVec Ideal S256x2048 .f32) (p : Fin 256) (s : Fin 2048) :
    maxV v9 (ix2 p s) = rowMax (fun s => v9 (ix2 p s)) := by
  unfold maxV
  rw [col_bcast_apply, col_cast_apply]
  exact rowmax_apply v9 p

theorem expV_apply (v9 : FVec Ideal S256x2048 .f32) (p : Fin 256) (s : Fin 2048) :
    expV v9 (ix2 p s) = expRow (fun s => v9 (ix2 p s)) s := by
  unfold expV expRow
  show Ideal.exp (v9 (ix2 p s) - maxV v9 (ix2 p s)) = _
  rw [maxV_apply]

theorem sumV_apply (v14 : FVec Ideal S256x2048 .f32) (p : Fin 256) (s : Fin 2048) :
    sumV v14 (ix2 p s) = ∑ k : Fin 2048, v14 (ix2 p k) := by
  unfold sumV
  rw [col_bcast_apply, col_cast_apply]
  exact rowsum_apply v14 p

theorem softV_apply (v9 : FVec Ideal S256x2048 .f32) (p : Fin 256) (s : Fin 2048) :
    softV v9 (ix2 p s) = weight (fun s => v9 (ix2 p s)) s := by
  unfold softV weight rowSum
  show Ideal.div (expV v9 (ix2 p s)) (sumV (expV v9) (ix2 p s)) = _
  rw [sumV_apply, expV_apply]
  exact congrArg (Ideal.div _) (Finset.sum_congr rfl fun k _ => expV_apply v9 p k)

/-- The attention body is the projection of the attended values of the block's softmax. -/
theorem k1_pay4_eq (v3 : FVec Ideal S1x256x128 .bf16) (v5 : FVec Ideal S2048x128 .bf16) (v6 : FVec Ideal S2048x1024 .bf16)
    (v22 : FVec Ideal S1024x1024 .f32) :
    k1_pay4 (F := Ideal) v3 v5 v6 v22
      = shapeCast S1x256x1024 (matmul dot_S256x1024_S1024x1024_S256x1024_1_1_0_0_n_n none
          (truncf .bf16 (matmul dot_S256x2048_S2048x1024_S256x1024_1_0_0_1_n_n none (truncf .bf16 (softV (scoreV v3 v5)) bitsLt_bf16_f32) v6
            (constant S256x1024 .f32 0x00000000#32)) bitsLt_bf16_f32)
          (truncf .bf16 v22 bitsLt_bf16_f32) (constant S256x1024 .f32 0x00000000#32)) shapeCasts_S256x1024_S1x256x1024 := rfl

/-- The attention body at query row `p` of the block and output coordinate `o`: the output projection of the
    value matrix weighted by the softmax of the row's own scores. -/
theorem k1_pay4_apply (v3 : FVec Ideal S1x256x128 .bf16) (v5 : FVec Ideal S2048x128 .bf16) (v6 : FVec Ideal S2048x1024 .bf16)
    (v22 : FVec Ideal S1024x1024 .f32) (p : Fin 256) (o : Fin 1024) :
    k1_pay4 (F := Ideal) v3 v5 v6 v22 (ix3 (0 : Fin 1) p o)
      = ∑ e : Fin 1024, (∑ s : Fin 2048,
          weight (fun s => (∑ r : Fin 128, v3 (ix3 (0 : Fin 1) p r) * v5 (ix2 s r)) * scale) s * v6 (ix2 s e)) * v22 (ix2 o e) := by
  rw [k1_pay4_eq]
  refine (shapeCast_ab_1ab_apply _ _ (0 : Fin 1) p o).trans ?_
  refine (mm_o _ _ p o).trans ?_
  refine Finset.sum_congr rfl fun e _ => ?_
  refine congrArg₂ (· * ·) ?_ rfl
  refine (mm_av _ _ p e).trans ?_
  refine Finset.sum_congr rfl fun s _ => ?_
  refine congrArg₂ (· * ·) ?_ rfl
  show softV (scoreV v3 v5) (ix2 p s) = _
  rw [softV_apply]
  exact congrArg (fun f => weight f s) (funext fun k => scoreV_apply v3 v5 p k)

/-- The same, in the specification's words. -/
theorem k1_pay4_spec (v3 : FVec Ideal S1x256x128 .bf16) (v5 : FVec Ideal S2048x128 .bf16) (v6 : FVec Ideal S2048x1024 .bf16)
    (v22 : FVec Ideal S1024x1024 .f32) (p : Fin 256) (o : Fin 1024) :
    k1_pay4 (F := Ideal) v3 v5 v6 v22 (ix3 (0 : Fin 1) p o)
      = outProj (attnOut (score (fun r => v3 (ix3 (0 : Fin 1) p r)) (fun s r => v5 (ix2 s r))) (fun s e => v6 (ix2 s e))) v22 o :=
  k1_pay4_apply v3 v5 v6 v22 p o

end Cert.Attn

end
-- ==== Proof.KIValue.lean ====
/-
  What the idealized kernel computes, from the launch memory, at the instance where a float is an extended real.

  Each region's result array is read off its write-backs: a grid point writes back one block, and the blocks of
  a region's output tile its array, so the array after the region is one function of the arrays the region finds.
  * The query projection: point t writes back rows 512·t … 512·t + 511; row i, column r is the sum over d of
    (flattened target)[i, d] · Wq[r, d].
  * The attention: point t is query tile t % 8 of batch element t / 8 and writes back positions
    256·(t % 8) … of that batch element. The tile's scores, softmax weights, attended values and output
    projection are those of the specification, with keys and values read from the two scratch buffers — which,
    by the region's invariant, hold the key and value projections of the memory block of batch element t / 8.
  The two host reshapes only re-index: flattened row b·2048 + t is position t of batch element b. Composing, the
  result array is the specification's function of the six launch arrays; no argument needs finiteness, both
  sides being the same nested sums re-indexed.
-/
import proofs.«155551_j8581344657576_2_alg».proof.Proof.KIRun
import proofs.«155551_j8581344657576_2_alg».proof.Proof.AttnSpec
import proofs.«155551_j8581344657576_2_alg».proof.Proof.AttnPayloads
import Idealize.ShloMosaic.Lib.Pipeline.Value
import Idealize.ShloMosaic.Lib.ValueIdx
import Idealize.ShloMosaic.Lib.StableHlo.Run

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Hand Idealize.ShloMosaic.ValueIdx Cert.Attn

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The host reshapes, read -/

/-- The flattened target the query projection reads is the target reshaped. -/
theorem V1_v0 (c : Dev nD) : (V1 m ρ c main_v0 : S8192x1024.Idx → EReal)
    = shapeCast S8192x1024 (m ((c : Thread nD τ).loc main_arg0) : S4x2048x1024.Idx → EReal) shapeCasts_S4x2048x1024_S8192x1024 := by
  show StableHlo.after hostOps0 (W0 m ρ c) (Proc.devRef .tc main_v0) = _
  after_results; rfl

/-- The queries the attention reads are the projected queries reshaped. -/
theorem V3_v2 (c : Dev nD) : (V3 m ρ c main_v2 : S4x2048x128.Idx → EReal)
    = shapeCast S4x2048x128 (V2 m ρ c main_v1 : S8192x128.Idx → EReal) shapeCasts_S8192x128_S4x2048x128 := by
  show StableHlo.after hostOps1 (W2 m ρ c) (Proc.devRef .tc main_v2) = _
  after_results; rfl

/-- Row i of the flattened target is position i % 2048 of batch element i / 2048. -/
theorem V1_v0_apply (c : Dev nD) (b : Fin 4) (t : Fin 2048) (d : Fin 1024) (i : Fin 8192) (hi : i.val = b.val * 2048 + t.val) :
    (V1 m ρ c main_v0 : S8192x1024.Idx → EReal) (ix2 i d) = (m ((c : Thread nD τ).loc main_arg0) : S4x2048x1024.Idx → EReal) (ix3 b t d) := by
  rw [V1_v0]
  refine shapeCast_apply _ _ _ (ix3 b t d) ?_
  rw [Shape.rowMajor_val_two, Shape.rowMajor_val_three]
  show (b.val * 2048 + t.val) * 1024 + d.val = i.val * 1024 + d.val
  rw [hi]

/-- Query (b, t) is row b · 2048 + t of the projected queries. -/
theorem V3_v2_apply (c : Dev nD) (b : Fin 4) (t : Fin 2048) (r : Fin 128) (i : Fin 8192) (hi : i.val = b.val * 2048 + t.val) :
    (V3 m ρ c main_v2 : S4x2048x128.Idx → EReal) (ix3 b t r) = (V2 m ρ c main_v1 : S8192x128.Idx → EReal) (ix2 i r) := by
  rw [V3_v2]
  refine shapeCast_apply _ _ _ (ix2 i r) ?_
  rw [Shape.rowMajor_val_two, Shape.rowMajor_val_three]
  show i.val * 128 + r.val = (b.val * 2048 + t.val) * 128 + r.val
  rw [hi]

/-! ## The windows' index maps, decided over the grids -/

/-- Query projection: point t stages rows 512·t… of the target and of the result; the weight's block never moves. -/
theorem qidx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Attention: point t is tile t % 8 of batch element t / 8; the queries' and the result's blocks follow the point,
    the memory block the batch element only, the weights' blocks never move. -/
theorem aidx : ∀ t : Fin cfg1.N, win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

/-- A product of two arrays' entries, re-indexed on both sides. -/
theorem mul_at {ι κ : Type} (A : ι → EReal) (W : κ → EReal) {i i' : ι} {j j' : κ} (hi : i = i') (hj : j = j') :
    A i * W j = A i' * W j' := by rw [hi, hj]

/-! ## The projected queries, as one array -/

/-- Row i of the flattened target against row r of the weight. -/
def Qat (a : S8192x1024.Idx → EReal) (w : S128x1024.Idx → EReal) (i : Fin 8192) (r : Fin 128) : EReal :=
  ∑ d : Fin 1024, a (ix2 i d) * w (ix2 r d)
/-- The projected queries over the flattened positions. -/
def Qarr (a : S8192x1024.Idx → EReal) (w : S128x1024.Idx → EReal) : S8192x128.Idx → EReal := fun j => Qat a w (j 0) (j 1)

variable (V : (c : Dev nD) → (b : Ref sig .tc) → Buf (Elt Ideal) ((c : Thread nD τ).loc b))

/-- What point t writes back is block t of the projected queries of the arrays the region finds. -/
theorem qflushed (c : Dev nD) (t : Fin cfg0.N) :
    (qdat V c).flushed 2 t = ((cfg0.win 2).blk t).view.read (Elt Ideal) (Qarr (V c main_v0) (V c main_arg2)) := by
  show (cfg0.win 2).cut (grid0.coords t) ((qdat V c).after 2 t) = _
  rw [qafter_2]
  unfold qout
  rw [View.canon_unit_zero hz2]
  simp only [View.ld_unit_zero (S := S512x1024) hz2, View.ld_unit_zero (S := S128x1024) hz2]
  obtain ⟨e0, e1, e2, e3, e4, e5⟩ := qidx t
  funext j
  obtain ⟨p, r, rfl⟩ : ∃ (p : Fin 512) (r : Fin 128), j = ix2 p r := ⟨j 0, j 1, eq_ix2 j⟩
  show k0_pay1 (F := Ideal) (qblk V c 0 t) (qblk V c 1 t) (ix2 p r) = _
  refine (k0_pay1_apply (qblk V c 0 t) (qblk V c 1 t) p r).trans ?_
  have h0 : ∀ d : Fin 1024, ((cfg0.win 0).blk t).view.emb (ix2 p d) = ix2 ((((cfg0.win 2).blk t).view.emb (ix2 p r)) 0) d := fun d => by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * d.val = d.val; omega
  have h1 : ∀ d : Fin 1024, ((cfg0.win 1).blk t).view.emb (ix2 r d) = ix2 ((((cfg0.win 2).blk t).view.emb (ix2 p r)) 1) d := fun d => by
    funext a; apply Fin.ext
    match a with
    | ⟨0, _⟩ => show win0_1.index t (0 : Fin 2) * 128 + 1 * r.val = win0_2.index t (1 : Fin 2) * 128 + 1 * r.val; omega
    | ⟨1, _⟩ => show win0_1.index t (1 : Fin 2) * 1024 + 1 * d.val = d.val; omega
  show _ = Qarr (V c main_v0) (V c main_arg2) (((cfg0.win 2).blk t).view.emb (ix2 p r))
  unfold Qarr Qat
  refine Finset.sum_congr rfl fun d _ => ?_
  exact mul_at (ι := S8192x1024.Idx) (κ := S128x1024.Idx) (V c main_v0) (V c main_arg2) (h0 d) (h1 d)

/-- An index of the projected queries is in point t's block iff each coordinate is in the block's range on its axis. -/
theorem qmem_blk (t : Fin cfg0.N) (i : S8192x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v1).slice (win0_2.rect t)).set ↔ _
  rw [View.set_slice_whole, Rect.mem_set_unit]
  exact Iff.rfl

/-- Every row belongs to the block of the point row / 512. -/
theorem qcovered (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  let t : Fin cfg0.N := ⟨(i 0).val / 512, lt_of_lt_of_eq (by omega : (i 0).val / 512 < 16) N_0.symm⟩
  obtain ⟨e0, e1, e2, e3, e4, e5⟩ := qidx t
  have e4' : win0_2.index t (0 : Fin 2) = (i 0).val / 512 := e4
  refine ⟨t, flush0_2 t, ?_⟩
  rw [qmem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- After the region the result array of the query projection holds the projected queries. -/
theorem qfinal (c : Dev nD) : (qdat V c).arrAt 2 cfg0.N = Qarr (V c main_v0) (V c main_arg2) :=
  (qdat V c).arrAt_eq_of_cover 2 _ (fun t _ => qflushed V c t) qcovered

/-! ## The attention result, as one array -/

/-- The result at (b, t, o) from the projected queries, the memory and the three later weights. -/
def Aat (q : S4x2048x128.Idx → EReal) (mem : S4x2048x1024.Idx → EReal) (wk : S128x1024.Idx → EReal) (wv wo : S1024x1024.Idx → EReal)
    (b : Fin 4) (t : Fin 2048) (o : Fin 1024) : EReal :=
  outProj (attnOut (score (fun r => q (ix3 b t r)) (kP mem wk b)) (vP mem wv b)) wo o
def Aarr (q : S4x2048x128.Idx → EReal) (mem : S4x2048x1024.Idx → EReal) (wk : S128x1024.Idx → EReal) (wv wo : S1024x1024.Idx → EReal) :
    S4x2048x1024.Idx → EReal := fun i => Aat q mem wk wv wo (i 0) (i 1) (i 2)

theorem batchStart_val (n : ℕ) (hn : n < cfg1.N) : (batchStart n hn).val = 8 * (n / 8) := rfl

/-- The key scratch after point n holds the key projection of batch element n / 8. -/
theorem kscr_apply (c : Dev nD) (n : ℕ) (hn : n < cfg1.N) (s : Fin 2048) (r : Fin 128) (b : Fin 4) (hb : b.val = n / 8) :
    kscr V c n hn (ix2 s r) = kP (V c main_arg1) (V c main_arg3) b s r := by
  unfold kscr kst
  rw [View.canon_unit_zero hz2]
  simp only [View.ld_unit_zero (S := S1x2048x1024) hz3, View.ld_unit_zero (S := S128x1024) hz2]
  refine (k1_pay2_apply (ablk V c 1 (batchStart n hn)) (ablk V c 2 (batchStart n hn)) s r).trans ?_
  unfold kP
  obtain ⟨a00, a01, a02, a10, a11, a12, a20, a21, a30, a31, a40, a41, a50, a51, a52⟩ := aidx (batchStart n hn)
  have hbs := batchStart_val n hn
  refine Finset.sum_congr rfl fun d _ => ?_
  have h1 : ((cfg1.win 1).blk (batchStart n hn)).view.emb (ix3 (0 : Fin 1) s d) = ix3 b s d := by
    funext a; apply Fin.ext
    match a with
    | ⟨0, _⟩ => show win1_1.index (batchStart n hn) (0 : Fin 3) * 1 + 1 * 0 = b.val; omega
    | ⟨1, _⟩ => show win1_1.index (batchStart n hn) (1 : Fin 3) * 2048 + 1 * s.val = s.val; omega
    | ⟨2, _⟩ => show win1_1.index (batchStart n hn) (2 : Fin 3) * 1024 + 1 * d.val = d.val; omega
  have h2 : ((cfg1.win 2).blk (batchStart n hn)).view.emb (ix2 r d) = ix2 r d := by
    funext a; apply Fin.ext
    match a with
    | ⟨0, _⟩ => show win1_2.index (batchStart n hn) (0 : Fin 2) * 128 + 1 * r.val = r.val; omega
    | ⟨1, _⟩ => show win1_2.index (batchStart n hn) (1 : Fin 2) * 1024 + 1 * d.val = d.val; omega
  exact mul_at (ι := S4x2048x1024.Idx) (κ := S128x1024.Idx) (V c main_arg1) (V c main_arg3) h1 h2

/-- The value scratch after point n holds the value projection of batch element n / 8. -/
theorem vscr_apply (c : Dev nD) (n : ℕ) (hn : n < cfg1.N) (s : Fin 2048) (e : Fin 1024) (b : Fin 4) (hb : b.val = n / 8) :
    vscr V c n hn (ix2 s e) = vP (V c main_arg1) (V c main_arg4) b s e := by
  unfold vscr vst
  rw [View.canon_unit_zero hz2]
  simp only [View.ld_unit_zero (S := S1x2048x1024) hz3, View.ld_unit_zero (S := S1024x1024) hz2]
  refine (k1_pay3_apply (ablk V c 1 (batchStart n hn)) (ablk V c 3 (batchStart n hn)) s e).trans ?_
  unfold vP
  obtain ⟨a00, a01, a02, a10, a11, a12, a20, a21, a30, a31, a40, a41, a50, a51, a52⟩ := aidx (batchStart n hn)
  have hbs := batchStart_val n hn
  refine Finset.sum_congr rfl fun d _ => ?_
  have h1 : ((cfg1.win 1).blk (batchStart n hn)).view.emb (ix3 (0 : Fin 1) s d) = ix3 b s d := by
    funext a; apply Fin.ext
    match a with
    | ⟨0, _⟩ => show win1_1.index (batchStart n hn) (0 : Fin 3) * 1 + 1 * 0 = b.val; omega
    | ⟨1, _⟩ => show win1_1.index (batchStart n hn) (1 : Fin 3) * 2048 + 1 * s.val = s.val; omega
    | ⟨2, _⟩ => show win1_1.index (batchStart n hn) (2 : Fin 3) * 1024 + 1 * d.val = d.val; omega
  have h2 : ((cfg1.win 3).blk (batchStart n hn)).view.emb (ix2 e d) = ix2 e d := by
    funext a; apply Fin.ext
    match a with
    | ⟨0, _⟩ => show win1_3.index (batchStart n hn) (0 : Fin 2) * 1024 + 1 * e.val = e.val; omega
    | ⟨1, _⟩ => show win1_3.index (batchStart n hn) (1 : Fin 2) * 1024 + 1 * d.val = d.val; omega
  exact mul_at (ι := S4x2048x1024.Idx) (κ := S1024x1024.Idx) (V c main_arg1) (V c main_arg4) h1 h2

/-- What point t writes back is block t of the attention result of the arrays the region finds: the tile's
    queries against the scratch, which holds the projections of the tile's batch element. -/
theorem aflushed (c : Dev nD) (t : Fin cfg1.N) :
    (adat V c).flushed 5 t = ((cfg1.win 5).blk t).view.read (Elt Ideal)
      (Aarr (V c main_v2) (V c main_arg1) (V c main_arg3) (V c main_arg4) (V c main_arg5)) := by
  show (cfg1.win 5).cut (grid1.coords t) ((adat V c).after 5 t) = _
  rw [aafter_5]
  unfold aout
  rw [View.canon_unit_zero hz3]
  simp only [View.ld_unit_zero (S := S1x256x128) hz3, View.ld_unit_zero (S := S2048x128) hz2, View.ld_unit_zero (S := S2048x1024) hz2,
    View.ld_unit_zero (S := S1024x1024) hz2]
  have hN : t.val < 32 := lt_of_lt_of_eq t.isLt (show cfg1.N = 32 from N_1)
  obtain ⟨a00, a01, a02, a10, a11, a12, a20, a21, a30, a31, a40, a41, a50, a51, a52⟩ := aidx t
  funext j
  obtain ⟨z, p, o, rfl⟩ : ∃ (z : Fin 1) (p : Fin 256) (o : Fin 1024), j = ix3 z p o := ⟨j 0, j 1, j 2, eq_ix3 j⟩
  obtain rfl : z = 0 := Subsingleton.elim _ _
  show k1_pay4 (F := Ideal) (ablk V c 0 t) (kscr V c t.val t.isLt) (vscr V c t.val t.isLt) (ablk V c 4 t) (ix3 (0 : Fin 1) p o) = _
  refine (k1_pay4_spec (ablk V c 0 t) (kscr V c t.val t.isLt) (vscr V c t.val t.isLt) (ablk V c 4 t) p o).trans ?_
  have hp : p.val < 256 := p.isLt
  let b : Fin 4 := ⟨t.val / 8, by omega⟩
  let tt : Fin 2048 := ⟨(t.val % 8) * 256 + p.val, by omega⟩
  have hj : ((cfg1.win 5).blk t).view.emb (ix3 (0 : Fin 1) p o) = ix3 b tt o := by
    funext a; apply Fin.ext
    match a with
    | ⟨0, _⟩ => show win1_5.index t (0 : Fin 3) * 1 + 1 * 0 = t.val / 8; omega
    | ⟨1, _⟩ => show win1_5.index t (1 : Fin 3) * 256 + 1 * p.val = (t.val % 8) * 256 + p.val; omega
    | ⟨2, _⟩ => show win1_5.index t (2 : Fin 3) * 1024 + 1 * o.val = o.val; omega
  show _ = Aarr (V c main_v2) (V c main_arg1) (V c main_arg3) (V c main_arg4) (V c main_arg5) (((cfg1.win 5).blk t).view.emb (ix3 (0 : Fin 1) p o))
  rw [hj]
  show _ = Aat (V c main_v2) (V c main_arg1) (V c main_arg3) (V c main_arg4) (V c main_arg5) b tt o
  unfold Aat
  have hq : (fun r : Fin 128 => ablk V c 0 t (ix3 (0 : Fin 1) p r)) = fun r => (V c main_v2 : S4x2048x128.Idx → EReal) (ix3 b tt r) := funext fun r => by
    show (V c main_v2 : S4x2048x128.Idx → EReal) (((cfg1.win 0).blk t).view.emb (ix3 (0 : Fin 1) p r)) = _
    congr 1
    funext a; apply Fin.ext
    match a with
    | ⟨0, _⟩ => show win1_0.index t (0 : Fin 3) * 1 + 1 * 0 = t.val / 8; omega
    | ⟨1, _⟩ => show win1_0.index t (1 : Fin 3) * 256 + 1 * p.val = (t.val % 8) * 256 + p.val; omega
    | ⟨2, _⟩ => show win1_0.index t (2 : Fin 3) * 128 + 1 * r.val = r.val; omega
  have hk : (fun (s : Fin 2048) (r : Fin 128) => kscr V c t.val t.isLt (ix2 s r)) = kP (V c main_arg1) (V c main_arg3) b :=
    funext fun s => funext fun r => kscr_apply V c t.val t.isLt s r b rfl
  have hv : (fun (s : Fin 2048) (e : Fin 1024) => vscr V c t.val t.isLt (ix2 s e)) = vP (V c main_arg1) (V c main_arg4) b :=
    funext fun s => funext fun e => vscr_apply V c t.val t.isLt s e b rfl
  have ho : ∀ a : Fin 1024 → EReal, outProj a (ablk V c 4 t) o = outProj a (V c main_arg5) o := fun a => by
    unfold outProj
    refine Finset.sum_congr rfl fun e _ => ?_
    congr 1
    show (V c main_arg5 : S1024x1024.Idx → EReal) (((cfg1.win 4).blk t).view.emb (ix2 o e)) = (V c main_arg5 : S1024x1024.Idx → EReal) (ix2 o e)
    congr 1
    funext a; apply Fin.ext
    match a with
    | ⟨0, _⟩ => show win1_4.index t (0 : Fin 2) * 1024 + 1 * o.val = o.val; omega
    | ⟨1, _⟩ => show win1_4.index t (1 : Fin 2) * 1024 + 1 * e.val = e.val; omega
  rw [hq, hk, hv, ho]

/-- An index of the result is in point t's block iff each coordinate is in the block's range on its axis. -/
theorem amem_blk (t : Fin cfg1.N) (i : S4x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v3).slice (win1_5.rect t)).set ↔ _
  rw [View.set_slice_whole, Rect.mem_set_unit]
  exact Iff.rfl

/-- Position (b, t) belongs to the block of the point 8·b + t / 256. -/
theorem acovered (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  let t : Fin cfg1.N := ⟨(i 0).val * 8 + (i 1).val / 256, lt_of_lt_of_eq (by omega : (i 0).val * 8 + (i 1).val / 256 < 32) N_1.symm⟩
  obtain ⟨a00, a01, a02, a10, a11, a12, a20, a21, a30, a31, a40, a41, a50, a51, a52⟩ := aidx t
  have ht : t.val = (i 0).val * 8 + (i 1).val / 256 := rfl
  refine ⟨t, flush1_5 t, ?_⟩
  rw [amem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- After the region the result array holds the attention result of the arrays the region finds. -/
theorem afinal (c : Dev nD) :
    (adat V c).arrAt 5 cfg1.N = Aarr (V c main_v2) (V c main_arg1) (V c main_arg3) (V c main_arg4) (V c main_arg5) :=
  (adat V c).arrAt_eq_of_cover 5 _ (fun t _ => aflushed V c t) acovered

/-! ## The program's result, from the launch memory -/

/-- No segment before the attention region writes the memory or the three later weights, nor the query weight before
    the query projection. -/
theorem V1_arg2 (c : Dev nD) : V1 m ρ c main_arg2 = m ((c : Thread nD τ).loc main_arg2) :=
  (StableHlo.after_of_writes_sub hostOps0 _ hostOps0_writes (by decide : main_arg2 ∉ hostOps0_W)).trans rfl
theorem V3_arg1 (c : Dev nD) : V3 m ρ c main_arg1 = m ((c : Thread nD τ).loc main_arg1) :=
  (StableHlo.after_of_writes_sub hostOps1 _ hostOps1_writes (by decide : main_arg1 ∉ hostOps1_W)).trans
    ((W2_of_ne m ρ c main_arg1 (by decide)).trans
      ((StableHlo.after_of_writes_sub hostOps0 _ hostOps0_writes (by decide : main_arg1 ∉ hostOps0_W)).trans rfl))
theorem V3_arg3 (c : Dev nD) : V3 m ρ c main_arg3 = m ((c : Thread nD τ).loc main_arg3) :=
  (StableHlo.after_of_writes_sub hostOps1 _ hostOps1_writes (by decide : main_arg3 ∉ hostOps1_W)).trans
    ((W2_of_ne m ρ c main_arg3 (by decide)).trans
      ((StableHlo.after_of_writes_sub hostOps0 _ hostOps0_writes (by decide : main_arg3 ∉ hostOps0_W)).trans rfl))
theorem V3_arg4 (c : Dev nD) : V3 m ρ c main_arg4 = m ((c : Thread nD τ).loc main_arg4) :=
  (StableHlo.after_of_writes_sub hostOps1 _ hostOps1_writes (by decide : main_arg4 ∉ hostOps1_W)).trans
    ((W2_of_ne m ρ c main_arg4 (by decide)).trans
      ((StableHlo.after_of_writes_sub hostOps0 _ hostOps0_writes (by decide : main_arg4 ∉ hostOps0_W)).trans rfl))
theorem V3_arg5 (c : Dev nD) : V3 m ρ c main_arg5 = m ((c : Thread nD τ).loc main_arg5) :=
  (StableHlo.after_of_writes_sub hostOps1 _ hostOps1_writes (by decide : main_arg5 ∉ hostOps1_W)).trans
    ((W2_of_ne m ρ c main_arg5 (by decide)).trans
      ((StableHlo.after_of_writes_sub hostOps0 _ hostOps0_writes (by decide : main_arg5 ∉ hostOps0_W)).trans rfl))

/-- The query projection's result array, as the attention's host reshape finds it. -/
theorem V2_v1 (c : Dev nD) : V2 m ρ c main_v1 = Qarr (V1 m ρ c main_v0) (V1 m ρ c main_arg2) :=
  (W2_arr m ρ c 2).trans (qfinal (V1 m ρ) c)

/-- The queries the attention reads are the query projection of the launch target by the launch weight. -/
theorem V3_v2_eq_qP (c : Dev nD) (b : Fin 4) (t : Fin 2048) :
    (fun r : Fin 128 => (V3 m ρ c main_v2 : S4x2048x128.Idx → EReal) (ix3 b t r))
      = qP (m ((c : Thread nD τ).loc main_arg0)) (m ((c : Thread nD τ).loc main_arg2)) b t := by
  funext r
  have hb : b.val < 4 := b.isLt
  have ht : t.val < 2048 := t.isLt
  have hi : b.val * 2048 + t.val < 8192 := by omega
  rw [V3_v2_apply m ρ c b t r ⟨b.val * 2048 + t.val, hi⟩ rfl, V2_v1]
  show Qat (V1 m ρ c main_v0) (V1 m ρ c main_arg2) ⟨b.val * 2048 + t.val, hi⟩ r = _
  unfold Qat qP
  refine Finset.sum_congr rfl fun d _ => ?_
  rw [V1_v0_apply m ρ c b t d ⟨b.val * 2048 + t.val, hi⟩ rfl, V1_arg2]

/-- THE RESULT: what the attention region's write-backs leave in the result array is the specification's function of
    the six launch arrays. -/
theorem kernel_value (c : Dev nD) :
    (adat (V3 m ρ) c).arrAt 5 cfg1.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [afinal (V3 m ρ) c, V3_arg1, V3_arg3, V3_arg4, V3_arg5]
  funext i
  obtain ⟨b, t, o, rfl⟩ : ∃ (b : Fin 4) (t : Fin 2048) (o : Fin 1024), i = ix3 b t o := ⟨i 0, i 1, i 2, eq_ix3 i⟩
  show Aat (V3 m ρ c main_v2) _ _ _ _ b t o = Gat _ _ _ _ _ _ b t o
  unfold Aat Gat
  rw [V3_v2_eq_qP m ρ c b t]

end Cert.KernelIdeal.HandValue

end
-- ==== Proof.AttnRef.lean ====
/-
  The reference program computes the specification.

  Read stage by stage at an index: each `dot_general` is the sum over its one contracted coordinate, so the
  three projections are the specification's and the scaled product of queries and keys is its row of scores;
  the row maximum is the fold of `max` over the key positions from the initial value, and taking the maximum
  with that initial value once more changes nothing; subtracting it, exponentiating, summing over the row (from
  the zero word) and dividing gives the softmax weight; the last two `dot_general`s apply the weights to the
  values and project.  No law beyond re-indexing is used, so nothing need be finite.
-/
import proofs.«155551_j8581344657576_2_alg».proof.Proof.Gen.ReferenceIdeal.Read
import proofs.«155551_j8581344657576_2_alg».proof.Proof.AttnSpec
import Idealize.ShloMosaic.PureOps.Ideal.Laws

noncomputable section

open scoped BigOperators

namespace Cert.Attn.Ref

open Cert.ReferenceIdeal Cert.ReferenceIdeal.Gen Cert.ReferenceIdeal.Read Cert.Attn
open Idealize.ShloMosaic Idealize.ShloMosaic.ValueIdx Idealize.ShloMosaic.StableHlo

variable (x0 x1 : (⟨S4x2048x1024, .f32⟩ : BufTy).Contents (Elt Ideal)) (x2 x3 : (⟨S128x1024, .f32⟩ : BufTy).Contents (Elt Ideal))
  (x4 x5 : (⟨S1024x1024, .f32⟩ : BufTy).Contents (Elt Ideal))

/-! ## The composed index maps at an index written by coordinates -/

theorem lidx0 (b : Fin 4) (t : Fin 2048) (r : Fin 128) (k : Fin 1024) : lidx_main_v0 (ix3 b t r) k = ix3 b t k :=
  funext fun a => Fin.ext (by match a with | ⟨0, _⟩ => rfl | ⟨1, _⟩ => rfl | ⟨2, _⟩ => rfl)
theorem ridx0 (b : Fin 4) (t : Fin 2048) (r : Fin 128) (k : Fin 1024) : ridx_main_v0 (ix3 b t r) k = ix2 r k :=
  funext fun a => Fin.ext (by match a with | ⟨0, _⟩ => rfl | ⟨1, _⟩ => rfl)
theorem lidx1 (b : Fin 4) (t : Fin 2048) (r : Fin 128) (k : Fin 1024) : lidx_main_v1 (ix3 b t r) k = ix3 b t k :=
  funext fun a => Fin.ext (by match a with | ⟨0, _⟩ => rfl | ⟨1, _⟩ => rfl | ⟨2, _⟩ => rfl)
theorem ridx1 (b : Fin 4) (t : Fin 2048) (r : Fin 128) (k : Fin 1024) : ridx_main_v1 (ix3 b t r) k = ix2 r k :=
  funext fun a => Fin.ext (by match a with | ⟨0, _⟩ => rfl | ⟨1, _⟩ => rfl)
theorem lidx2 (b : Fin 4) (s : Fin 2048) (e : Fin 1024) (k : Fin 1024) : lidx_main_v2 (ix3 b s e) k = ix3 b s k :=
  funext fun a => Fin.ext (by match a with | ⟨0, _⟩ => rfl | ⟨1, _⟩ => rfl | ⟨2, _⟩ => rfl)
theorem ridx2 (b : Fin 4) (s : Fin 2048) (e : Fin 1024) (k : Fin 1024) : ridx_main_v2 (ix3 b s e) k = ix2 e k :=
  funext fun a => Fin.ext (by match a with | ⟨0, _⟩ => rfl | ⟨1, _⟩ => rfl)
theorem lidx3 (b : Fin 4) (t s : Fin 2048) (k : Fin 128) : lidx_main_v3 (ix3 b t s) k = ix3 b t k :=
  funext fun a => Fin.ext (by match a with | ⟨0, _⟩ => rfl | ⟨1, _⟩ => rfl | ⟨2, _⟩ => rfl)
theorem ridx3 (b : Fin 4) (t s : Fin 2048) (k : Fin 128) : ridx_main_v3 (ix3 b t s) k = ix3 b s k :=
  funext fun a => Fin.ext (by match a with | ⟨0, _⟩ => rfl | ⟨1, _⟩ => rfl | ⟨2, _⟩ => rfl)
theorem idx9_10 (b : Fin 4) (t s : Fin 2048) : idx_main_v9 (idx_main_v10 (ix3 b t s)) = ix2 b t :=
  funext fun a => Fin.ext (by match a with | ⟨0, _⟩ => rfl | ⟨1, _⟩ => rfl)
theorem idx13 (b : Fin 4) (t : Fin 2048) (k : Fin 2048) : idx_main_v13 (ix2 b t) k = ix3 b t k :=
  funext fun a => Fin.ext (by match a with | ⟨0, _⟩ => rfl | ⟨1, _⟩ => rfl | ⟨2, _⟩ => rfl)
theorem idx14_15 (b : Fin 4) (t s : Fin 2048) : idx_main_v14 (idx_main_v15 (ix3 b t s)) = ix2 b t :=
  funext fun a => Fin.ext (by match a with | ⟨0, _⟩ => rfl | ⟨1, _⟩ => rfl)
theorem lidx17 (b : Fin 4) (t : Fin 2048) (e : Fin 1024) (k : Fin 2048) : lidx_main_v17 (ix3 b t e) k = ix3 b t k :=
  funext fun a => Fin.ext (by match a with | ⟨0, _⟩ => rfl | ⟨1, _⟩ => rfl | ⟨2, _⟩ => rfl)
theorem ridx17 (b : Fin 4) (t : Fin 2048) (e : Fin 1024) (k : Fin 2048) : ridx_main_v17 (ix3 b t e) k = ix3 b k e :=
  funext fun a => Fin.ext (by match a with | ⟨0, _⟩ => rfl | ⟨1, _⟩ => rfl | ⟨2, _⟩ => rfl)
theorem lidx18 (b : Fin 4) (t : Fin 2048) (o : Fin 1024) (k : Fin 1024) : lidx_main_v18 (ix3 b t o) k = ix3 b t k :=
  funext fun a => Fin.ext (by match a with | ⟨0, _⟩ => rfl | ⟨1, _⟩ => rfl | ⟨2, _⟩ => rfl)
theorem ridx18 (b : Fin 4) (t : Fin 2048) (o : Fin 1024) (k : Fin 1024) : ridx_main_v18 (ix3 b t o) k = ix2 o k :=
  funext fun a => Fin.ext (by match a with | ⟨0, _⟩ => rfl | ⟨1, _⟩ => rfl)

/-- A row of the `[4,2048,2048]` scores with the key position inserted is the index `(b, t, k)`. -/
theorem lift_row (h : S4x2048x2048.Reduces [2] S4x2048) (b : Fin 4) (t : Fin 2048) (k : Fin 2048) :
    h.lift (ix2 b t) k = ix3 b t k :=
  funext fun a => Fin.ext (by match a with | ⟨0, _⟩ => rfl | ⟨1, _⟩ => rfl | ⟨2, _⟩ => rfl)

/-! ## The stages -/

/-- The first `dot_general` is the query projection. -/
theorem v0_eq (b : Fin 4) (t : Fin 2048) (r : Fin 128) : val_main_v0 (F := Ideal) x0 x2 (ix3 b t r) = qP x0 x2 b t r := by
  rw [val_main_v0_apply]
  exact Finset.sum_congr rfl fun k _ => by rw [lidx0, ridx0]

/-- The second is the key projection. -/
theorem v1_eq (b : Fin 4) (s : Fin 2048) (r : Fin 128) : val_main_v1 (F := Ideal) x1 x3 (ix3 b s r) = kP x1 x3 b s r := by
  rw [val_main_v1_apply]
  exact Finset.sum_congr rfl fun k _ => by rw [lidx1, ridx1]

/-- The third is the value projection. -/
theorem v2_eq (b : Fin 4) (s : Fin 2048) (e : Fin 1024) : val_main_v2 (F := Ideal) x1 x4 (ix3 b s e) = vP x1 x4 b s e := by
  rw [val_main_v2_apply]
  exact Finset.sum_congr rfl fun k _ => by rw [lidx2, ridx2]

/-- The scaled product of queries and keys is the row of scores. -/
theorem v5_eq (b : Fin 4) (t s : Fin 2048) :
    val_main_v5 (F := Ideal) x0 x1 x2 x3 (ix3 b t s) = score (qP x0 x2 b t) (kP x1 x3 b) s := by
  rw [val_main_v5_apply, val_main_v3_apply, val_main_v4_apply, val_main_cst_apply]
  unfold score scale
  refine congrArg₂ (· * ·) (Finset.sum_congr rfl fun k _ => ?_) rfl
  rw [lidx3, ridx3, v0_eq, v1_eq]

/-- The `reduce` with `maximum` over the key positions is the row maximum. -/
theorem v6_eq (b : Fin 4) (t : Fin 2048) :
    val_main_v6 (F := Ideal) x0 x1 x2 x3 (ix2 b t) = rowMax (score (qP x0 x2 b t) (kP x1 x3 b)) := by
  unfold val_main_v6
  have h : S4x2048x2048.Reduces [2] S4x2048 := by decide
  rw [Host.reduce_eq_fold_single (FloatOps.maximumf (F := Ideal) (φ := .f32)) _ _ reducesTo_S4x2048x2048_S4x2048_d2 h h_S_]
  unfold rowMax floorVal
  exact congrArg (fun f : Fin 2048 → EReal => (Finset.univ : Finset (Fin 2048)).fold max (Ideal.ofBits .f32 0xFF800000#32) f)
    (funext fun k => (congrArg (val_main_v5 (F := Ideal) x0 x1 x2 x3) (lift_row h b t k)).trans (v5_eq x0 x1 x2 x3 b t k))

/-- Taking the maximum with the initial value again changes nothing. -/
theorem v8_eq (b : Fin 4) (t : Fin 2048) :
    val_main_v8 (F := Ideal) x0 x1 x2 x3 (ix2 b t) = rowMax (score (qP x0 x2 b t) (kP x1 x3 b)) := by
  rw [val_main_v8_apply, val_main_v7_apply, val_main_cst_1_apply, v6_eq]
  exact max_floor_rowMax _

/-- The row maximum spread back over the row. -/
theorem v10_eq (b : Fin 4) (t s : Fin 2048) :
    val_main_v10 (F := Ideal) x0 x1 x2 x3 (ix3 b t s) = rowMax (score (qP x0 x2 b t) (kP x1 x3 b)) := by
  rw [val_main_v10_apply, val_main_v9_apply, idx9_10, v8_eq]

/-- The exponential of a score less its row's maximum. -/
theorem v12_eq (b : Fin 4) (t s : Fin 2048) :
    val_main_v12 (F := Ideal) x0 x1 x2 x3 (ix3 b t s) = expRow (score (qP x0 x2 b t) (kP x1 x3 b)) s := by
  rw [val_main_v12_apply, val_main_v11_apply, v5_eq, v10_eq]
  rfl

/-- The `reduce` with `add` over the key positions is the row's normaliser. -/
theorem v13_eq (b : Fin 4) (t : Fin 2048) :
    val_main_v13 (F := Ideal) x0 x1 x2 x3 (ix2 b t) = rowSum (score (qP x0 x2 b t) (kP x1 x3 b)) := by
  rw [val_main_v13_apply, val_main_cst_2_apply]
  show Ideal.ofBits .f32 0x00000000#32 + _ = _
  rw [Ideal.ofBits_zero_f32, zero_add]
  exact Finset.sum_congr rfl fun k _ => by rw [idx13, v12_eq]

/-- The normaliser spread back over the row. -/
theorem v15_eq (b : Fin 4) (t s : Fin 2048) :
    val_main_v15 (F := Ideal) x0 x1 x2 x3 (ix3 b t s) = rowSum (score (qP x0 x2 b t) (kP x1 x3 b)) := by
  rw [val_main_v15_apply, val_main_v14_apply, idx14_15, v13_eq]

/-- The quotient is the softmax weight. -/
theorem v16_eq (b : Fin 4) (t s : Fin 2048) :
    val_main_v16 (F := Ideal) x0 x1 x2 x3 (ix3 b t s) = weight (score (qP x0 x2 b t) (kP x1 x3 b)) s := by
  rw [val_main_v16_apply, v12_eq, v15_eq]
  rfl

/-- The weights applied to the values. -/
theorem v17_eq (b : Fin 4) (t : Fin 2048) (e : Fin 1024) :
    val_main_v17 (F := Ideal) x0 x1 x2 x3 x4 (ix3 b t e) = attnOut (score (qP x0 x2 b t) (kP x1 x3 b)) (vP x1 x4 b) e := by
  rw [val_main_v17_apply]
  exact Finset.sum_congr rfl fun k _ => by rw [lidx17, ridx17, v16_eq, v2_eq]

/-- The reference's last stage is the specification. -/
theorem ref_eq_G : val_main_v18 (F := Ideal) x0 x1 x2 x3 x4 x5 = G x0 x1 x2 x3 x4 x5 := by
  funext i
  obtain ⟨b, t, o, rfl⟩ : ∃ (b : Fin 4) (t : Fin 2048) (o : Fin 1024), i = ix3 b t o := ⟨i 0, i 1, i 2, eq_ix3 i⟩
  rw [G_ix3, val_main_v18_apply]
  unfold Gat outProj
  refine Finset.sum_congr rfl fun k _ => ?_
  rw [lidx18, ridx18, v17_eq]

end Cert.Attn.Ref

end
-- ==== Proof.lean ====
/-
  Low-rank cross-attention, a fused kernel against its plain reference, equal over the extended reals.

  The kernel runs two pipelined regions around two host reshapes: the query projection (sixteen row blocks of the
  flattened target against the whole weight), and the fused attention over the grid (batch element, query tile),
  which at a batch element's first tile projects the batch element's memory block to keys and values into two
  scratch buffers and at every tile computes, from the scratch, the scaled scores, the softmax along the keys
  (maximum folded from −∞, exponentials, their sum, an exact division), the attended values and the output
  projection. The reference computes the same with whole-array contractions.

  * The frames (both the word-level kernel and its idealization: the same text read at two instances): the program
    is cut into host stretch, region, host stretch, region; each region's body is run symbolically on its staging
    buffers, in two control cases for the attention (first tile of a batch element or not); the attention region's
    invariant carries what the two scratch buffers hold from one grid point to the next. No segment writes an
    argument array. The reference has no kernel: its frame is its run with the result dropped.
  * The idealization rewrote nothing, so there is nothing to preserve beyond the text.
  * The values: at the extended reals every format change is the identity, a matrix product into a zero
    accumulator is the sum over the contracted axis, and a lane reduction is the sum or the maximum; so block by
    block the kernel's result is the specification's function of the six arguments, and so is, stage by stage,
    the reference's. Both runs are posted with that one function.
-/
import proofs.«155551_j8581344657576_2_alg».proof.Defs
import proofs.«155551_j8581344657576_2_alg».proof.Proof.Gen.Kernel
import proofs.«155551_j8581344657576_2_alg».proof.Proof.Gen.KernelIdeal
import proofs.«155551_j8581344657576_2_alg».proof.Proof.Gen.ReferenceIdeal
import proofs.«155551_j8581344657576_2_alg».proof.Proof.Gen.ReferenceIdeal.Run
import proofs.«155551_j8581344657576_2_alg».proof.Proof.Gen.ReferenceIdeal.Read
import proofs.«155551_j8581344657576_2_alg».proof.Proof.Gen.Pre_finite_inputs
import proofs.«155551_j8581344657576_2_alg».proof.Proof.KBRun
import proofs.«155551_j8581344657576_2_alg».proof.Proof.KIRun
import proofs.«155551_j8581344657576_2_alg».proof.Proof.KIValue
import proofs.«155551_j8581344657576_2_alg».proof.Proof.AttnRef
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the specification's function of them in
    their result arrays, and their arguments unchanged. -/
theorem algebraic : Cert.algebraic_KernelIdeal_ReferenceIdeal := by
  intro m ρ m' ρ' _ hagree
  refine ⟨fun c => Cert.Attn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HandValue.kernel_value m ρ c), (h c).2⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.Attn.Ref.ref_eq_G, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
